-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S2x640000 : Shape := ⟨2, ![2, 640000]⟩
abbrev S4x128 : Shape := ⟨2, ![4, 128]⟩
abbrev S128 : Shape := ⟨1, ![128]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S4x128 : S_.BroadcastsInDim S4x128 (![] : Fin 0 → Fin S4x128.rank)
  reducesTo_S4x128_S_d0_1 : S4x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x4 .f32) (main_arg1 : IVec S2x640000 32) (main_arg2 : FVec F S4x128 .f32) (main_arg3 : FVec F S128 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S4x128 .f32 := Host.absf main_arg2
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x4 : Shape := ⟨2, ![100000, 4]⟩
abbrev S2x640000 : Shape := ⟨2, ![2, 640000]⟩
abbrev S4x128 : Shape := ⟨2, ![4, 128]⟩
abbrev S128 : Shape := ⟨1, ![128]⟩
abbrev S100000 : Shape := ⟨1, ![100000]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S740000x4 : Shape := ⟨2, ![740000, 4]⟩
abbrev S1x128 : Shape := ⟨2, ![1, 128]⟩
abbrev S100000x128 : Shape := ⟨2, ![100000, 128]⟩
abbrev S10000x4 : Shape := ⟨2, ![10000, 4]⟩
abbrev S10000x128 : Shape := ⟨2, ![10000, 128]⟩

abbrev nBuf : Space → Nat
  | .hbm => 65
  | .vmem => 6
  | .smem => 0
  | _ => 0

abbrev bufTy : (tb : Table) → Fin (tcTables nBuf tb) → BufTy
  | .hbm, ⟨0, _⟩ => ⟨S100000x4, .f32⟩
  | .hbm, ⟨1, _⟩ => ⟨S2x640000, .i32⟩
  | .hbm, ⟨2, _⟩ => ⟨S4x128, .f32⟩
  | .hbm, ⟨3, _⟩ => ⟨S128, .f32⟩
  | .hbm, ⟨4, _⟩ => ⟨S100000, .i32⟩
  | .hbm, ⟨5, _⟩ => ⟨S1x640000, .i32⟩
  | .hbm, ⟨6, _⟩ => ⟨S640000, .i32⟩
  | .hbm, ⟨7, _⟩ => ⟨S740000, .i32⟩
  | .hbm, ⟨8, _⟩ => ⟨S1x640000, .i32⟩
  | .hbm, ⟨9, _⟩ => ⟨S640000, .i32⟩
  | .hbm, ⟨10, _⟩ => ⟨S740000, .i32⟩
  | .hbm, ⟨11, _⟩ => ⟨S_, .f32⟩
  | .hbm, ⟨12, _⟩ => ⟨S740000, .f32⟩
  | .hbm, ⟨13, _⟩ => ⟨S_, .f32⟩
  | .hbm, ⟨14, _⟩ => ⟨S100000, .f32⟩
  | .hbm, ⟨15, _⟩ => ⟨S740000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S740000, .i32⟩
  | .hbm, ⟨30, _⟩ => ⟨S740000, .i1⟩
  | .hbm, ⟨31, _⟩ => ⟨S_, .i32⟩
  | .hbm, ⟨32, _⟩ => ⟨S740000, .i32⟩
  | .hbm, ⟨33, _⟩ => ⟨S740000, .i32⟩
  | .hbm, ⟨34, _⟩ => ⟨S740000, .i32⟩
  | .hbm, ⟨35, _⟩ => ⟨S740000x1, .i32⟩
  | .hbm, ⟨36, _⟩ => ⟨S740000, .f32⟩
  | .hbm, ⟨37, _⟩ => ⟨S_, .i32⟩
  | .hbm, ⟨38, _⟩ => ⟨S740000, .i32⟩
  | .hbm, ⟨39, _⟩ => ⟨S740000, .i1⟩
  | .hbm, ⟨40, _⟩ => ⟨S_, .i32⟩
  | .hbm, ⟨41, _⟩ => ⟨S740000, .i32⟩
  | .hbm, ⟨42, _⟩ => ⟨S740000, .i32⟩
  | .hbm, ⟨43, _⟩ => ⟨S740000, .i32⟩
  | .hbm, ⟨44, _⟩ => ⟨S740000x1, .i32⟩
  | .hbm, ⟨45, _⟩ => ⟨S740000, .f32⟩
  | .hbm, ⟨46, _⟩ => ⟨S740000, .f32⟩
  | .hbm, ⟨47, _⟩ => ⟨S_, .i32⟩
  | .hbm, ⟨48, _⟩ => ⟨S740000, .i32⟩
  | .hbm, ⟨49, _⟩ => ⟨S740000, .i1⟩
  | .hbm, ⟨50, _⟩ => ⟨S_, .i32⟩
  | .hbm, ⟨51, _⟩ => ⟨S740000, .i32⟩
  | .hbm, ⟨52, _⟩ => ⟨S740000, .i32⟩
  | .hbm, ⟨53, _⟩ => ⟨S740000, .i32⟩
  | .hbm, ⟨54, _⟩ => ⟨S740000x1, .i32⟩
  | .hbm, ⟨55, _⟩ => ⟨S740000x4, .f32⟩
  | .hbm, ⟨56, _⟩ => ⟨S740000x1, .f32⟩
  | .hbm, ⟨57, _⟩ => ⟨S740000x4, .f32⟩
  | .hbm, ⟨58, _⟩ => ⟨S740000x4, .f32⟩
  | .hbm, ⟨59, _⟩ => ⟨S_, .f32⟩
  | .hbm, ⟨60, _⟩ => ⟨S100000x4, .f32⟩
  | .hbm, ⟨61, _⟩ => ⟨S740000x1, .i32⟩
  | .hbm, ⟨62, _⟩ => ⟨S100000x4, .f32⟩
  | .hbm, ⟨63, _⟩ => ⟨S1x128, .f32⟩
  | .hbm, ⟨64, _⟩ => ⟨S100000x128, .f32⟩
  | .local _ .vmem, ⟨0, _⟩ => ⟨S10000x4, .f32⟩
  | .local _ .vmem, ⟨1, _⟩ => ⟨S10000x4, .f32⟩
  | .local _ .vmem, ⟨2, _⟩ => ⟨S4x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_c_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  bcast_S740000x1_S740000x4_0_1 : S740000x1.BroadcastsInDim S740000x4 (![0, 1] : Fin 2 → Fin S740000x4.rank)
  bcast_S_S100000x4 : S_.BroadcastsInDim S100000x4 (![] : Fin 0 → Fin S100000x4.rank)
  shapeCasts_S128_S1x128 : S128.ShapeCasts S1x128
  inb_S10000x4_S10000x4_0_0 : ∀ a, (![0, 0] : Fin 2 → Nat) a + S10000x4.size a ≤ S10000x4.size a
  h_S10000x4 : 0 < S10000x4.numel
  shapeCasts_S10000x4_S10000x4 : S10000x4.ShapeCasts S10000x4
  bitsLt_bf16_f32 : FTy.bits .bf16 < FTy.bits .f32
  inb_S4x128_S4x128_0_0 : ∀ a, (![0, 0] : Fin 2 → Nat) a + S4x128.size a ≤ S4x128.size a
  h_S4x128 : 0 < S4x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  gather_S100000x4_S740000x1_S740000x4_1_0_n_n_0_1_14_wf : GatherDims.WF S100000x4 S740000x1 S740000x4 [1] [0] [] [0] [] 1 ![1, 4]
  scatter_S100000x4_S740000x1_S740000x4_1_0_0_1_wf : ScatterDims.WF S100000x4 S740000x1 S740000x4 [1] [0] [0] 1
  dot_S10000x4_S4x128_S10000x128_1_0_0_1_n_n_wf : DotDims.WF S10000x4 S4x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x4.size a ≤ S100000x4.size a
  hwx0_0 : ∀ i : grid0.Coords, EltTy.bits .f32 = 32 ∨ (Rect.block (s := S100000x4) S10000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x128.size a ≤ S4x128.size a
  hwx0_1 : ∀ i : grid0.Coords, EltTy.bits .f32 = 32 ∨ (Rect.block (s := S4x128) S4x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def gather_S100000x4_S740000x1_S740000x4_1_0_n_n_0_1_14 : GatherDims S100000x4 S740000x1 S740000x4 where
  offsetDims := [1]
  collapsedSliceDims := [0]
  operandBatchingDims := []
  startIndicesBatchingDims := []
  startIndexMap := [0]
  indexVectorDim := 1
  sliceSizes := ![1, 4]
  wf := gather_S100000x4_S740000x1_S740000x4_1_0_n_n_0_1_14_wf
def scatter_S100000x4_S740000x1_S740000x4_1_0_0_1 : ScatterDims S100000x4 S740000x1 S740000x4 where
  updateWindowDims := [1]
  insertedWindowDims := [0]
  scatterDimsToOperandDims := [0]
  indexVectorDim := 1
  wf := scatter_S100000x4_S740000x1_S740000x4_1_0_0_1_wf
def dot_S10000x4_S4x128_S10000x128_1_0_0_1_n_n : DotDims S10000x4 S4x128 S10000x128 where
  lhsContracting := [1]
  rhsContracting := [0]
  lhsNonContracting := [0]
  rhsNonContracting := [1]
  lhsBatch := []
  rhsBatch := []
  wf := dot_S10000x4_S4x128_S10000x128_1_0_0_1_n_n_wf

abbrev win0_0 : Pipeline.Window sig grid0 :=
  Pipeline.Window.ofSpec (Memref.whole main_v44) S10000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v45) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v46) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x4 : Shape := ⟨2, ![100000, 4]⟩
abbrev S2x640000 : Shape := ⟨2, ![2, 640000]⟩
abbrev S4x128 : Shape := ⟨2, ![4, 128]⟩
abbrev S128 : Shape := ⟨1, ![128]⟩
abbrev S100000x128 : Shape := ⟨2, ![100000, 128]⟩
abbrev S100000 : Shape := ⟨1, ![100000]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S740000x128 : Shape := ⟨2, ![740000, 128]⟩
abbrev S1x128 : Shape := ⟨2, ![1, 128]⟩

abbrev nBuf : Space → Nat
  | .hbm => 67
  | .vmem => 0
  | .smem => 0
  | _ => 0

abbrev bufTy : (tb : Table) → Fin (tcTables nBuf tb) → BufTy
  | .hbm, ⟨0, _⟩ => ⟨S100000x4, .f32⟩
  | .hbm, ⟨1, _⟩ => ⟨S2x640000, .i32⟩
  | .hbm, ⟨2, _⟩ => ⟨S4x128, .f32⟩
  | .hbm, ⟨3, _⟩ => ⟨S128, .f32⟩
  | .hbm, ⟨4, _⟩ => ⟨S100000x128, .f32⟩
  | .hbm, ⟨5, _⟩ => ⟨S100000, .i32⟩
  | .hbm, ⟨6, _⟩ => ⟨S1x640000, .i32⟩
  | .hbm, ⟨7, _⟩ => ⟨S640000, .i32⟩
  | .hbm, ⟨8, _⟩ => ⟨S740000, .i32⟩
  | .hbm, ⟨9, _⟩ => ⟨S1x640000, .i32⟩
  | .hbm, ⟨10, _⟩ => ⟨S640000, .i32⟩
  | .hbm, ⟨11, _⟩ => ⟨S740000, .i32⟩
  | .hbm, ⟨12, _⟩ => ⟨S_, .f32⟩
  | .hbm, ⟨13, _⟩ => ⟨S740000, .f32⟩
  | .hbm, ⟨14, _⟩ => ⟨S_, .f32⟩
  | .hbm, ⟨15, _⟩ => ⟨S100000, .f32⟩
  | .hbm, ⟨16, _⟩ => ⟨S740000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S740000, .i32⟩
  | .hbm, ⟨31, _⟩ => ⟨S740000, .i1⟩
  | .hbm, ⟨32, _⟩ => ⟨S_, .i32⟩
  | .hbm, ⟨33, _⟩ => ⟨S740000, .i32⟩
  | .hbm, ⟨34, _⟩ => ⟨S740000, .i32⟩
  | .hbm, ⟨35, _⟩ => ⟨S740000, .i32⟩
  | .hbm, ⟨36, _⟩ => ⟨S740000x1, .i32⟩
  | .hbm, ⟨37, _⟩ => ⟨S740000, .f32⟩
  | .hbm, ⟨38, _⟩ => ⟨S_, .i32⟩
  | .hbm, ⟨39, _⟩ => ⟨S740000, .i32⟩
  | .hbm, ⟨40, _⟩ => ⟨S740000, .i1⟩
  | .hbm, ⟨41, _⟩ => ⟨S_, .i32⟩
  | .hbm, ⟨42, _⟩ => ⟨S740000, .i32⟩
  | .hbm, ⟨43, _⟩ => ⟨S740000, .i32⟩
  | .hbm, ⟨44, _⟩ => ⟨S740000, .i32⟩
  | .hbm, ⟨45, _⟩ => ⟨S740000x1, .i32⟩
  | .hbm, ⟨46, _⟩ => ⟨S740000, .f32⟩
  | .hbm, ⟨47, _⟩ => ⟨S740000, .f32⟩
  | .hbm, ⟨48, _⟩ => ⟨S_, .i32⟩
  | .hbm, ⟨49, _⟩ => ⟨S740000, .i32⟩
  | .hbm, ⟨50, _⟩ => ⟨S740000, .i1⟩
  | .hbm, ⟨51, _⟩ => ⟨S_, .i32⟩
  | .hbm, ⟨52, _⟩ => ⟨S740000, .i32⟩
  | .hbm, ⟨53, _⟩ => ⟨S740000, .i32⟩
  | .hbm, ⟨54, _⟩ => ⟨S740000, .i32⟩
  | .hbm, ⟨55, _⟩ => ⟨S740000x1, .i32⟩
  | .hbm, ⟨56, _⟩ => ⟨S740000x128, .f32⟩
  | .hbm, ⟨57, _⟩ => ⟨S740000x1, .f32⟩
  | .hbm, ⟨58, _⟩ => ⟨S740000x128, .f32⟩
  | .hbm, ⟨59, _⟩ => ⟨S740000x128, .f32⟩
  | .hbm, ⟨60, _⟩ => ⟨S_, .f32⟩
  | .hbm, ⟨61, _⟩ => ⟨S100000x128, .f32⟩
  | .hbm, ⟨62, _⟩ => ⟨S740000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v17 : Ref sig .tc := ⟨.hbm, 28, rfl⟩
abbrev main_c : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x4_S4x128_S100000x128_1_0_0_1_n_n_wf : DotDims.WF S100000x4 S4x128 S100000x128 [1] [0] [0] [1] [] []
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1

variable [Facts₀]

def dot_S100000x4_S4x128_S100000x128_1_0_0_1_n_n : DotDims S100000x4 S4x128 S100000x128 where
  lhsContracting := [1]
  rhsContracting := [0]
  lhsNonContracting := [0]
  rhsNonContracting := [1]
  lhsBatch := []
  rhsBatch := []
  wf := dot_S100000x4_S4x128_S100000x128_1_0_0_1_n_n_wf
def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf

class Facts : Prop extends Facts₀ where

variable [Facts]
-- ==== Proof.LibRowGatherScatter.lean ====
/-
  Row gather and row scatter-add, read at an index.

  `x[idx]` of a matrix `x : [N, C]` at a vector of `E` row numbers lowers to `stablehlo.gather` with offset_dims [1],
  collapsed_slice_dims [0], start_index_map [0], index_vector_dim 1 and slice sizes [1, C] over the row numbers as an
  `[E, 1]` array: result element `(e, k)` is `x` at row `idx[e, 0]` — read signed and clamped into `[0, N − 1]` — and
  column `k` (`gather_rows_apply`).

  `segment_sum(u, idx)` of updates `u : [E, C]` into `[N, C]` lowers to `stablehlo.scatter` with an `add` body,
  update_window_dims [1], inserted_window_dims [0], scatter_dims_to_operand_dims [0], index_vector_dim 1: at the extended
  reals element `(n, c)` of the result is the operand's plus the sum, over the rows `e` whose row number `idx[e, 0]`, read
  signed and NOT clamped, is `n`, of `u (e, c)` (`scatterAdd_rows_apply`). A row number outside `[0, N)` lands nowhere.

  Both for any sizes `N`, `E`, `C` and any index width.
-/
import Idealize.ShloMosaic.Lib.ValueIdx
import Idealize.ShloMosaic.PureOps.Ideal.Laws

noncomputable section

open scoped BigOperators

namespace Idealize.ShloMosaic.RowIndexing

open Idealize.ShloMosaic Idealize.ShloMosaic.ValueIdx

/-- The entry `[e, 0]` of an `[E, 1]` array of row numbers. -/
abbrev rowAt {E : Nat} (e : Fin E) : (⟨2, ![E, 1]⟩ : Shape).Idx := ix2 e (⟨0, Nat.one_pos⟩ : Fin 1)

/-! ## The gather of whole rows -/

section Gather
variable {α : Type}

/-- The dimension numbers of a gather of whole rows of an `[N, C]` operand at `[E, 1]` row numbers. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: the operand at row `idx[e, 0]`, read signed and clamped into `[0, N − 1]`, column `k`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 (⟨min (idx (rowAt e)).toInt.toNat (N - 1), by omega⟩ : Fin N) k) := by
  unfold Host.gather
  refine congrArg x ?_
  funext a
  refine Fin.ext ?_
  match a with
  | ⟨0, _⟩ =>
    show (rowGatherDims N E C wf).start (ix2 e k) idx 0 + (rowGatherDims N E C wf).batchCoord (ix2 e k) 0
      + (rowGatherDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = rowAt e := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
      + (rowGatherDims N E C wf).offCoord (ix2 e k) 1 = _
    rw [GatherDims.batchCoord_eq_zero _ _ _ List.not_mem_nil]
    have hs : (rowGatherDims N E C wf).start (ix2 e k) idx 1 = 0 := by
      unfold GatherDims.start
      rw [dif_neg (show ¬ (1 : Fin 2) ∈ (rowGatherDims N E C wf).startIndexMap from
        fun h => absurd (List.mem_singleton.mp h) (show ¬ ((1 : Fin 2) = 0) by decide))]
    have ho : (rowGatherDims N E C wf).offCoord (ix2 e k) 1 = k.val := by
      unfold GatherDims.offCoord
      rw [dif_pos (show (1 : Fin 2) ∈ (rowGatherDims N E C wf).sKept from (GatherDims.mem_sKept _ _).mpr
        ⟨fun h => absurd (List.mem_singleton.mp h) (show ¬ ((1 : Fin 2) = 0) by decide), List.not_mem_nil⟩)]
      rfl
    rw [hs, ho, Nat.add_zero, Nat.zero_add]

end Gather

/-! ## The scatter-add of whole rows -/

section Scatter

/-- The dimension numbers of a scatter of `[E, C]` update rows into an `[N, C]` operand at `[E, 1]` row numbers. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w) (e : Fin E) (k : Fin C)

/-- On the row axis the window of update `(e, k)` starts at the row number `idx[e, 0]`, read signed. -/
theorem rowScatter_start0 : (rowScatterDims N E C wf).start (ix2 e k) idx 0 = (idx (rowAt e)).toInt := by
  unfold ScatterDims.start
  rw [dif_pos (show (0 : Fin 2) ∈ (rowScatterDims N E C wf).scatterDimsToOperandDims from List.mem_singleton.mpr rfl)]
  have hsi : (rowScatterDims N E C wf).siIdx (ix2 e k) ⟨List.idxOf (0 : Fin 2) (rowScatterDims N E C wf).scatterDimsToOperandDims,
      List.idxOf_lt_length_iff.2 (List.mem_singleton.mpr rfl)⟩ = rowAt e := by
    funext b; refine Fin.ext ?_
    match b with
    | ⟨0, _⟩ => rfl
    | ⟨1, _⟩ => rfl
  rw [hsi]

/-- On the column axis it starts at `0`. -/
theorem rowScatter_start1 : (rowScatterDims N E C wf).start (ix2 e k) idx 1 = 0 := by
  unfold ScatterDims.start
  rw [dif_neg (show ¬ (1 : Fin 2) ∈ (rowScatterDims N E C wf).scatterDimsToOperandDims from
    fun h => absurd (List.mem_singleton.mp h) (show ¬ ((1 : Fin 2) = 0) by decide))]

/-- The row axis is inserted: the window coordinate there is `0`. -/
theorem rowScatter_window0 : (rowScatterDims N E C wf).window (ix2 e k) 0 = 0 := by
  unfold ScatterDims.window
  rw [dif_neg]
  intro h
  have : (0 : Fin 2) ∈ (List.finRange 2).filter (fun a => a ∉ [(0 : Fin 2)]) := h
  simp at this

/-- On the column axis the window coordinate is the update's column. -/
theorem rowScatter_window1 : (rowScatterDims N E C wf).window (ix2 e k) 1 = k.val := by
  unfold ScatterDims.window
  rw [dif_pos]
  · rfl
  · show (1 : Fin 2) ∈ (List.finRange 2).filter (fun a => a ∉ [(0 : Fin 2)])
    simp

/-- Update `(e, k)` lands at `(n, c)` exactly when its row number, read signed, is `n` and `k = c`. -/
theorem rowScatter_resultIdx_eq_some_iff (n : Fin N) (c : Fin C) :
    (rowScatterDims N E C wf).resultIdx? (ix2 e k) idx = some (ix2 n c)
      ↔ (idx (rowAt e)).toInt = (n.val : Int) ∧ k = c := by
  have hs0 := rowScatter_start0 wf idx e k
  have hs1 := rowScatter_start1 wf idx e k
  have hw0 := rowScatter_window0 wf e k
  have hw1 := rowScatter_window1 wf e k
  have hn : n.val < N := n.isLt
  have hk : k.val < C := k.isLt
  unfold ScatterDims.resultIdx?
  split
  · rename_i h
    rw [Option.some.injEq]
    constructor
    · intro heq
      have e0 := congrArg Fin.val (congrFun heq 0)
      have e1 := congrArg Fin.val (congrFun heq 1)
      have h0 := (h 0).1
      simp only [hs0, hw0, hs1, hw1] at e0 e1 h0
      have e0' : ((idx (rowAt e)).toInt + ((0 : Nat) : Int)).toNat = n.val := e0
      have e1' : ((0 : Int) + (k.val : Int)).toNat = c.val := e1
      refine ⟨by omega, Fin.ext (by omega)⟩
    · rintro ⟨h0, rfl⟩
      funext a
      refine Fin.ext ?_
      match a with
      | ⟨0, _⟩ =>
        show ((rowScatterDims N E C wf).start (ix2 e k) idx 0 + ((rowScatterDims N E C wf).window (ix2 e k) 0 : Nat)).toNat = n.val
        rw [hs0, hw0, h0]; omega
      | ⟨1, _⟩ =>
        show ((rowScatterDims N E C wf).start (ix2 e k) idx 1 + ((rowScatterDims N E C wf).window (ix2 e k) 1 : Nat)).toNat = k.val
        rw [hs1, hw1]; omega
  · rename_i h
    constructor
    · intro heq; exact absurd heq (by simp)
    · rintro ⟨h0, rfl⟩
      exfalso
      apply h
      intro a
      match a with
      | ⟨0, _⟩ =>
        show 0 ≤ (rowScatterDims N E C wf).start (ix2 e k) idx 0 + ((rowScatterDims N E C wf).window (ix2 e k) 0 : Nat)
          ∧ (rowScatterDims N E C wf).start (ix2 e k) idx 0 + ((rowScatterDims N E C wf).window (ix2 e k) 0 : Nat) < (N : Int)
        rw [hs0, hw0, h0]; omega
      | ⟨1, _⟩ =>
        show 0 ≤ (rowScatterDims N E C wf).start (ix2 e k) idx 1 + ((rowScatterDims N E C wf).window (ix2 e k) 1 : Nat)
          ∧ (rowScatterDims N E C wf).start (ix2 e k) idx 1 + ((rowScatterDims N E C wf).window (ix2 e k) 1 : Nat) < (C : Int)
        rw [hs1, hw1]; omega

/-- THE ROW SCATTER-ADD READ AT `(n, c)`, on the extended reals: the operand there plus the sum over the update rows whose row
    number, read signed, is `n`, of the update at column `c`. -/
theorem scatterAdd_rows_apply {φ : FTy} (x : FVec Ideal ⟨2, ![N, C]⟩ φ) (upd : FVec Ideal ⟨2, ![E, C]⟩ φ) (n : Fin N) (c : Fin C) :
    Host.scatterAdd (rowScatterDims N E C wf) x idx upd (ix2 n c)
      = x (ix2 n c) + ∑ e : Fin E, if (idx (rowAt e)).toInt = (n.val : Int) then upd (ix2 e c) else 0 := by
  show x (ix2 n c) + ∑ j ∈ Finset.univ.filter (fun j => (rowScatterDims N E C wf).resultIdx? j idx = some (ix2 n c)), upd j = _
  refine congrArg (x (ix2 n c) + ·) ?_
  rw [Finset.sum_filter, sum_idx2]
  refine Finset.sum_congr rfl fun e _ => ?_
  simp only [rowScatter_resultIdx_eq_some_iff]
  by_cases h : (idx (rowAt e)).toInt = (n.val : Int)
  · simp only [h, true_and, if_true]
    rw [Finset.sum_ite_eq' Finset.univ c (fun k => upd (ix2 e k))]
    simp
  · simp [h]

end Scatter

end Idealize.ShloMosaic.RowIndexing

end
-- ==== Proof.LibAggregateLinear.lean ====
/-
  A linear map commutes with a weighted aggregation, on the extended reals.

  Aggregating rows first and applying a matrix afterwards,
      ∑ k, (∑ e ∈ hits, x e k · a e) · w k ,
  is applying the matrix to every row first and aggregating afterwards,
      ∑ e ∈ hits, (∑ k, x e k · w k) · a e ,
  when every `x e k`, `w k` and `a e` is a real number: over ℝ this is distributivity and an exchange of the two finite sums.
  (With an infinite entry the two sides can differ: distributivity fails at `⊤ + ⊥`.)  The selection of the rows that hit is an
  `if` inside the sum, as a scatter-add read at an index leaves it.

  Also here: the coercion ℝ → EReal commutes with finite sums, and the reciprocal square root of a positive extended real is
  a real number (`⊤ ↦ 0`), so that `if 0 < y then rsqrt (max y ε) else 0` is real for every `y` and `ε`.
-/
import Idealize.ShloMosaic.PureOps.Ideal

noncomputable section

open scoped BigOperators

namespace Idealize.ShloMosaic.AggregateLinear

/-- The coercion of a finite real sum is the sum of the coercions. -/
theorem coe_finset_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is a real number. -/
theorem sum_isReal {ι : Type*} (s : Finset ι) (f : ι → EReal) (hf : ∀ i ∈ s, ∃ r : ℝ, f i = r) : ∃ r : ℝ, ∑ i ∈ s, f i = r := by
  classical
  induction s using Finset.induction_on with
  | empty => exact ⟨0, by simp⟩
  | insert a s ha ih =>
    obtain ⟨r, hr⟩ := ih fun i hi => hf i (Finset.mem_insert_of_mem hi)
    obtain ⟨q, hq⟩ := hf a (Finset.mem_insert_self a s)
    exact ⟨q + r, by rw [Finset.sum_insert ha, hr, hq, EReal.coe_add]⟩

/-- AGGREGATE THEN MAP = MAP THEN AGGREGATE, when every entry is real. -/
theorem aggregate_map_comm {ι κ : Type*} [Fintype ι] [Fintype κ] (x : ι → κ → EReal) (w : κ → EReal) (a : ι → EReal)
    (p : ι → Prop) [DecidablePred p]
    (hx : ∀ e k, ∃ r : ℝ, x e k = r) (hw : ∀ k, ∃ r : ℝ, w k = r) (ha : ∀ e, ∃ r : ℝ, a e = r) :
    ∑ k, (∑ e, if p e then x e k * a e else 0) * w k = ∑ e, if p e then (∑ k, x e k * w k) * a e else 0 := by
  choose X hX using hx
  choose W hW using hw
  choose A hA using ha
  have hl : ∀ k, (∑ e, if p e then x e k * a e else 0) * w k
      = (((∑ e, if p e then X e k * A e else 0) * W k : ℝ) : EReal) := by
    intro k
    rw [EReal.coe_mul, coe_finset_sum, hW]
    refine congrArg (· * (W k : EReal)) (Finset.sum_congr rfl fun e _ => ?_)
    by_cases h : p e
    · rw [if_pos h, if_pos h, hX, hA, EReal.coe_mul]
    · rw [if_neg h, if_neg h, EReal.coe_zero]
  have hr : ∀ e, (if p e then (∑ k, x e k * w k) * a e else 0)
      = (((if p e then (∑ k, X e k * W k) * A e else 0 : ℝ)) : EReal) := by
    intro e
    by_cases h : p e
    · rw [if_pos h, if_pos h, EReal.coe_mul, coe_finset_sum, hA]
      refine congrArg (· * (A e : EReal)) (Finset.sum_congr rfl fun k _ => ?_)
      rw [hX, hW, EReal.coe_mul]
    · rw [if_neg h, if_neg h, EReal.coe_zero]
  simp only [hl, hr, ← coe_finset_sum]
  refine congrArg (fun r : ℝ => (r : EReal)) ?_
  simp only [Finset.sum_mul]
  rw [Finset.sum_comm]
  refine Finset.sum_congr rfl fun e _ => ?_
  by_cases h : p e
  · simp only [if_pos h]
    refine Finset.sum_congr rfl fun k _ => ?_
    ring
  · simp only [if_neg h, zero_mul, Finset.sum_const_zero]

/-- The reciprocal square root of a positive extended real is a real number (`⊤ ↦ 0`). -/
theorem rsqrt_isReal_of_pos (y : EReal) (h : 0 < y) : ∃ r : ℝ, Ideal.rsqrt y = r := by
  induction y using EReal.rec with
  | bot => exact absurd h (not_lt.mpr bot_le)
  | top => exact ⟨0, by rw [Ideal.rsqrt_top, EReal.coe_zero]⟩
  | coe r =>
    have hr : 0 < r := EReal.coe_pos.mp h
    refine ⟨(Real.sqrt r)⁻¹, ?_⟩
    rw [Ideal.rsqrt_coe, if_neg (not_lt.mpr hr.le), if_neg hr.ne']

end Idealize.ShloMosaic.AggregateLinear

end
-- ==== Proof.Spec.lean ====
/-
  What both programs compute: one layer of graph convolution with symmetric normalisation.

  Nodes `n < 100000`, edges `e < 740000` (the 640000 given edges followed by one self loop per node), node features
  `x : [100000, 4]`, weights `W : [4, 128]`, bias `b : [128]`.  Edge `e` reads the features of its source node
  `srcRow rowN e` (the row number clamped into range, as a gather clamps it), scales them by the edge's coefficient
  `nrm e`, and adds the result to the node whose number is the edge's target `col e` read as a signed integer (an edge
  whose target is no node adds nothing, as a scatter drops it).

  The kernel aggregates the 4-wide features first and applies `W` to the aggregate (`outAggFirst`); the reference applies
  `W` to every node's features first and aggregates the 128-wide rows (`outMapFirst`).  When `x`, `W` and the
  coefficients are real numbers the two are equal (`outAggFirst_eq_outMapFirst`): a linear map commutes with a weighted
  sum of rows.
-/
import proofs.«143462_j47519518163429_2_alg».proof.Proof.LibRowGatherScatter
import proofs.«143462_j47519518163429_2_alg».proof.Proof.LibAggregateLinear

noncomputable section

open scoped BigOperators

namespace Cert.Spec

open Idealize.ShloMosaic Idealize.ShloMosaic.ValueIdx Idealize.ShloMosaic.RowIndexing

/-- The node whose features edge `e` reads: its source number read signed and clamped into `[0, 99999]`. -/
def srcRow (rowN : IVec ⟨2, ![740000, 1]⟩ 32) (e : Fin 740000) : Fin 100000 :=
  ⟨min (rowN (rowAt e)).toInt.toNat (100000 - 1), by omega⟩

/-- The aggregated 4-wide features of node `n`, feature `k`: the sum over the edges that land on `n` of the source's
    feature times the edge's coefficient. -/
def aggAt (x : FVec Ideal ⟨2, ![100000, 4]⟩ .f32) (rowN col : IVec ⟨2, ![740000, 1]⟩ 32)
    (nrm : FVec Ideal ⟨1, ![740000]⟩ .f32) (n : Fin 100000) (k : Fin 4) : EReal :=
  ∑ e : Fin 740000, if (col (rowAt e)).toInt = (n.val : Int) then x (ix2 (srcRow rowN e) k) * nrm (ix1 e) else 0

/-- Aggregate first, then the linear map and the bias. -/
def outAggFirst (x : FVec Ideal ⟨2, ![100000, 4]⟩ .f32) (W : FVec Ideal ⟨2, ![4, 128]⟩ .f32) (b : FVec Ideal ⟨1, ![128]⟩ .f32)
    (rowN col : IVec ⟨2, ![740000, 1]⟩ 32) (nrm : FVec Ideal ⟨1, ![740000]⟩ .f32) : FVec Ideal ⟨2, ![100000, 128]⟩ .f32 :=
  fun i => (∑ k : Fin 4, aggAt x rowN col nrm ⟨(i 0).val, idx2_lt0 i⟩ k * W (ix2 k (⟨(i 1).val, idx2_lt1 i⟩ : Fin 128)))
    + b (ix1 (⟨(i 1).val, idx2_lt1 i⟩ : Fin 128))

/-- The linear map on every node first, then the aggregation and the bias. -/
def outMapFirst (x : FVec Ideal ⟨2, ![100000, 4]⟩ .f32) (W : FVec Ideal ⟨2, ![4, 128]⟩ .f32) (b : FVec Ideal ⟨1, ![128]⟩ .f32)
    (rowN col : IVec ⟨2, ![740000, 1]⟩ 32) (nrm : FVec Ideal ⟨1, ![740000]⟩ .f32) : FVec Ideal ⟨2, ![100000, 128]⟩ .f32 :=
  fun i => (∑ e : Fin 740000, if (col (rowAt e)).toInt = ((i 0).val : Int)
      then (∑ k : Fin 4, x (ix2 (srcRow rowN e) k) * W (ix2 k (⟨(i 1).val, idx2_lt1 i⟩ : Fin 128))) * nrm (ix1 e) else 0)
    + b (ix1 (⟨(i 1).val, idx2_lt1 i⟩ : Fin 128))

/-- The two orders agree when the features, the weights and the edge coefficients are real numbers. -/
theorem outAggFirst_eq_outMapFirst (x : FVec Ideal ⟨2, ![100000, 4]⟩ .f32) (W : FVec Ideal ⟨2, ![4, 128]⟩ .f32)
    (b : FVec Ideal ⟨1, ![128]⟩ .f32) (rowN col : IVec ⟨2, ![740000, 1]⟩ 32) (nrm : FVec Ideal ⟨1, ![740000]⟩ .f32)
    (hx : ∀ i, ∃ r : ℝ, x i = r) (hW : ∀ i, ∃ r : ℝ, W i = r) (hn : ∀ i, ∃ r : ℝ, nrm i = r) :
    outAggFirst x W b rowN col nrm = outMapFirst x W b rowN col nrm := by
  funext i
  unfold outAggFirst outMapFirst aggAt
  refine congrArg (· + b (ix1 (⟨(i 1).val, idx2_lt1 i⟩ : Fin 128))) ?_
  exact AggregateLinear.aggregate_map_comm (fun e k => x (ix2 (srcRow rowN e) k))
    (fun k => W (ix2 k (⟨(i 1).val, idx2_lt1 i⟩ : Fin 128))) (fun e => nrm (ix1 e))
    (fun e => (col (rowAt e)).toInt = ((i 0).val : Int)) (fun e k => hx _) (fun k => hW _) (fun e => hn _)

end Cert.Spec

end
-- ==== Proof.Finite.lean ====
/-
  The precondition, read: `finite_inputs` holds exactly when every entry of the features, of the weights and of the bias has
  absolute value below `+∞`, and an extended real whose absolute value `max x (−x)` is below `⊤` is a real number.
-/
import proofs.«143462_j47519518163429_2_alg».proof.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx Cert.Pre_finite_inputs

instance : Subsingleton S_.Idx := ⟨fun a b => funext fun d => d.elim0⟩

/-- The word `0x7F800000` denotes `+∞`. -/
theorem ofBits_inf : Ideal.ofBits .f32 0x7F800000#32 = ⊤ := by
  simp [Ideal.ofBits, Ideal.ieee]

/-- An extended real whose absolute value is below `+∞` is a real number. -/
theorem isReal_of_abs_lt_top (x : EReal) (h : Ideal.cmp .olt (max x (-x)) (Ideal.ofBits .f32 0x7F800000#32) = 1#1) :
    ∃ r : ℝ, x = r := by
  rw [ofBits_inf] at h
  induction x using EReal.rec with
  | bot => simp [Ideal.cmp] at h
  | top => simp [Ideal.cmp] at h
  | coe r => exact ⟨r, rfl⟩

variable [Facts]

/-- Under the precondition every feature and every weight is a real number. -/
theorem real_of_pre (x : FVec Ideal S100000x4 .f32) (e1 : IVec S2x640000 32) (W : FVec Ideal S4x128 .f32) (b : FVec Ideal S128 .f32)
    (h : fn (F := Ideal) x e1 W b = fun _ => 1#1) :
    (∀ i, ∃ r : ℝ, x i = r) ∧ (∀ i, ∃ r : ℝ, W i = r) := by
  have h0 := congrFun h ix0
  dsimp only [fn] at h0
  obtain ⟨h01, -⟩ := IntOp.andi_eq_one.1 h0
  obtain ⟨hx, hW⟩ := IntOp.andi_eq_one.1 h01
  refine ⟨fun i => ?_, fun i => ?_⟩
  · exact isReal_of_abs_lt_top (x i) (Host.reduce_andi_all _ _ _ _ ix0 hx i)
  · exact isReal_of_abs_lt_top (W i) (Host.reduce_andi_all _ _ _ _ ix0 hW i)

end Cert.Finite

end
-- ==== Proof.KernelHost.lean ====
/-
  The host operations before the kernel's region, as functions of the argument arrays, and what the region finds in the two
  arrays they write for it: the aggregated 4-wide features (the source's features times the edge's coefficient, added up per
  target node) and the bias as a `[1, 128]` row.  Stated at every float instance: nothing here looks inside a float
  operation.
-/
import proofs.«143462_j47519518163429_2_alg».proof.Proof.Gen.KernelIdeal.Value
import Idealize.ShloMosaic.Lib.Pipeline.Value
import Idealize.ShloMosaic.Lib.ValueIdx
import Idealize.ShloMosaic.Lib.StableHlo.Run
import Idealize.ShloMosaic.PureOps.Ideal.Laws

noncomputable section

open scoped BigOperators

namespace Cert.KernelIdeal.Agg

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]

/-! ## The host operations before the region, as functions of the edge list -/

/-- Row `r` of the edge list followed by one self loop per node: the sources (`r = 0`) or targets (`r = 1`) of all edges. -/
def ends0 (e1 : IVec S2x640000 32) : IVec S740000 32 :=
  concatenate S740000 0 [⟨S640000, shapeCast _ (extractStridedSlice S1x640000 ![0, 0] e1 slices_S2x640000_S1x640000_0_0) shapeCasts_S1x640000_S640000⟩,
    ⟨S100000, iotaInDim S100000 32 0⟩] concatenates_S640000_S100000_S740000_d0
def ends1 (e1 : IVec S2x640000 32) : IVec S740000 32 :=
  concatenate S740000 0 [⟨S640000, shapeCast _ (extractStridedSlice S1x640000 ![1, 0] e1 slices_S2x640000_S1x640000_1_0) shapeCasts_S1x640000_S640000⟩,
    ⟨S100000, iotaInDim S100000 32 0⟩] concatenates_S640000_S100000_S740000_d0

/-- A negative node number counted from the end, as jnp indexing normalises it before a gather. -/
def wrapNeg (v : IVec S740000 32) : IVec S740000 32 :=
  select (cmpi .slt v (broadcastInDim S740000 ![] bcast_S_S740000 (constantI S_ 32 0#32)))
    (addi v (broadcastInDim S740000 ![] bcast_S_S740000 (constantI S_ 32 100000#32))) v

/-- The targets as the `[E, 1]` index array of the scatters. -/
def colIdx (e1 : IVec S2x640000 32) : IVec S740000x1 32 := broadcastInDim S740000x1 ![0] bcast_S740000_S740000x1_0 (ends1 e1)
/-- The normalised sources and targets as the `[E, 1]` index arrays of the gathers. -/
def rowNIdx (e1 : IVec S2x640000 32) : IVec S740000x1 32 := broadcastInDim S740000x1 ![0] bcast_S740000_S740000x1_0 (wrapNeg (ends0 e1))
def colNIdx (e1 : IVec S2x640000 32) : IVec S740000x1 32 := broadcastInDim S740000x1 ![0] bcast_S740000_S740000x1_0 (wrapNeg (ends1 e1))

/-- The in-degree of every node (self loop included). -/
def deg (e1 : IVec S2x640000 32) : FVec F S100000 .f32 :=
  Host.scatterAdd scatter_S100000_S740000x1_S740000_n_0_0_1 (broadcastInDim S100000 ![] bcast_S_S100000 (constant S_ .f32 0x00000000#32))
    (colIdx e1) (broadcastInDim S740000 ![] bcast_S_S740000 (constant S_ .f32 0x3F800000#32))

/-- `deg^(-1/2)` where the degree is positive, `0` elsewhere. -/
def dis (e1 : IVec S2x640000 32) : FVec F S100000 .f32 :=
  select (cmpf (F := F) .ogt (deg e1) (broadcastInDim S100000 ![] bcast_S_S100000 (constant S_ .f32 0x00000000#32)))
    (Host.rsqrt (maximumf (deg e1) (broadcastInDim S100000 ![] bcast_S_S100000 (constant S_ .f32 0x2B8CBCCC#32))))
    (broadcastInDim S100000 ![] bcast_S_S100000 (id (constant S_ .f32 0x00000000#32)))

/-- The coefficient of every edge: `dis` at its source times `dis` at its target. -/
def nrm (e1 : IVec S2x640000 32) : FVec F S740000 .f32 :=
  mulf (Host.gather gather_S100000_S740000x1_S740000_n_0_n_n_0_1_1 (dis e1) (rowNIdx e1))
    (Host.gather gather_S100000_S740000x1_S740000_n_0_n_n_0_1_1 (dis e1) (colNIdx e1))

/-- The aggregated 4-wide features, the array the kernel's first window reads. -/
def agg (x : FVec F S100000x4 .f32) (e1 : IVec S2x640000 32) : FVec F S100000x4 .f32 :=
  Host.scatterAdd scatter_S100000x4_S740000x1_S740000x4_1_0_0_1 (broadcastInDim S100000x4 ![] bcast_S_S100000x4 (constant S_ .f32 0x00000000#32))
    (colIdx e1)
    (mulf (Host.gather gather_S100000x4_S740000x1_S740000x4_1_0_n_n_0_1_14 x (rowNIdx e1))
      (broadcastInDim S740000x4 ![0, 1] bcast_S740000x1_S740000x4_0_1 (broadcastInDim S740000x1 ![0] bcast_S740000_S740000x1_0 (nrm e1))))

variable (m : (ℓ : Loc nD τ sig) → Buf (Elt F) ℓ) (ρ : Dev nD → PrngReg)

set_option maxRecDepth 8192 in
set_option maxHeartbeats 25200000 in
/-- The array of the kernel's first window at region entry is the aggregate. -/
theorem V_agg (c : Dev nD) : (V m c main_v44 : FVec F S100000x4 .f32)
    = agg (m ((c : Thread nD τ).loc main_arg0)) (m ((c : Thread nD τ).loc main_arg1)) := by
  dsimp only [Gen.V]
  simp only [Gen.hostOps0, Gen.hostOps0_1, Gen.hostOps0_2, List.flatten_cons, List.flatten_nil, List.append_nil, List.cons_append,
    List.nil_append]
  after_results_simp <;> rfl

set_option maxRecDepth 8192 in
set_option maxHeartbeats 25200000 in
/-- The array of its third window is the bias as a `[1, 128]` row. -/
theorem V_bias (c : Dev nD) : (V m c main_v45 : FVec F S1x128 .f32)
    = shapeCast S1x128 (m ((c : Thread nD τ).loc main_arg3)) shapeCasts_S128_S1x128 := by
  dsimp only [Gen.V]
  simp only [Gen.hostOps0, Gen.hostOps0_1, Gen.hostOps0_2, List.flatten_cons, List.flatten_nil, List.append_nil, List.cons_append,
    List.nil_append]
  after_results_simp <;> rfl

end Cert.KernelIdeal.Agg

end
-- ==== Proof.KernelCoeff.lean ====
/-
  The edge coefficients are real numbers.  A node's factor is `rsqrt (max deg ε)` where its degree is positive and `0`
  elsewhere: where the degree is positive so is the maximum, and the reciprocal square root of a positive extended real
  is a real number (`⊤ ↦ 0`) — whatever the degree and `ε` are, so the degree is never computed.  An edge's coefficient is
  the product of two entries of that vector of factors, the ones a gather picks.
-/
import proofs.«143462_j47519518163429_2_alg».proof.Proof.KernelHost
import proofs.«143462_j47519518163429_2_alg».proof.Proof.LibAggregateLinear
import Idealize.ShloMosaic.Lib.ValueIdx
import Idealize.ShloMosaic.PureOps.Ideal.Laws

noncomputable section

namespace Cert.KernelIdeal.Agg

open Cert.KernelIdeal Cert.KernelIdeal.Gen Idealize.ShloMosaic Idealize.ShloMosaic.ValueIdx

/-- `rsqrt (max d ε)` where `d > z`, `z'` elsewhere, is a real number at every index when `z` and `z'` are zero there —
    for any vectors `d` and `ε`. -/
theorem factor_isReal {s : Shape} (d eps z z' : FVec Ideal s .f32) (n : s.Idx) (hz : z n = 0) (hz' : z' n = 0) :
    ∃ r : ℝ, select (cmpf (F := Ideal) .ogt d z) (Host.rsqrt (maximumf d eps)) z' n = r := by
  rw [select_apply]
  unfold Scalar.select
  by_cases hc : cmpf (F := Ideal) .ogt d z n = 1
  · rw [if_pos hc]
    have hpos : (0 : EReal) < d n := by
      by_contra hn
      have h' : Ideal.cmp .ogt (d n) (z n) = 1#1 := hc
      rw [hz] at h'
      simp only [Ideal.cmp, decide_eq_false hn] at h'
      exact absurd h' (by decide)
    show ∃ r : ℝ, Ideal.rsqrt (max (d n) (eps n)) = r
    exact Idealize.ShloMosaic.AggregateLinear.rsqrt_isReal_of_pos _ (lt_max_of_lt_left hpos)
  · rw [if_neg hc]
    exact ⟨0, by rw [hz', EReal.coe_zero]⟩

/-- An entry of a gather of a vector of real numbers is a real number. -/
theorem gather_isReal {s si t : Shape} {w : Nat} (g : GatherDims s si t) (x : s.Idx → EReal) (idx : IVec si w)
    (hx : ∀ n, ∃ r : ℝ, x n = r) (j : t.Idx) : ∃ r : ℝ, Host.gather g x idx j = r := hx _

/-- A product of two real numbers is a real number. -/
theorem mulf_isReal {s : Shape} (a b : FVec Ideal s .f32) (j : s.Idx) (ha : ∃ r : ℝ, a j = r) (hb : ∃ r : ℝ, b j = r) :
    ∃ r : ℝ, mulf a b j = r := by
  obtain ⟨p, hp⟩ := ha
  obtain ⟨q, hq⟩ := hb
  exact ⟨p * q, by rw [mulf_apply, hp, hq, EReal.coe_mul]⟩

/-- Every node's factor is a real number. -/
theorem dis_isReal (e1 : IVec S2x640000 32) (n : S100000.Idx) : ∃ r : ℝ, dis (F := Ideal) e1 n = r := by
  unfold dis
  exact factor_isReal _ _ _ _ n Ideal.ofBits_zero_f32 Ideal.ofBits_zero_f32

/-- Every edge's coefficient is a real number. -/
theorem nrm_isReal (e1 : IVec S2x640000 32) (i : S740000.Idx) : ∃ r : ℝ, nrm (F := Ideal) e1 i = r := by
  unfold nrm
  exact mulf_isReal _ _ i (gather_isReal _ _ _ (dis_isReal e1) i) (gather_isReal _ _ _ (dis_isReal e1) i)

end Cert.KernelIdeal.Agg

end
-- ==== Proof.KernelBlocks.lean ====
/-
  The kernel's grid, read at every float instance: the ten points, which rows of its array each window's block at a point
  is, what a point writes back, and that the ten result blocks cover the result array.  Point `t` loads rows
  `10000·t … 10000·t + 9999` of the first window's array, all of the second's and third's, and writes rows `10000·t …` of the
  result.
-/
import proofs.«143462_j47519518163429_2_alg».proof.Proof.Gen.KernelIdeal.Value
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- The printed index maps over the grid: the first window and the result move down one block of rows per point, the
    weights and the bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 10 := by
  have := t.isLt
  have h : cfg0.N = 10 := N_0
  omega

/-- The row of the arrays that row `p` of point `t`'s blocks is. -/
def rowOf (t : Fin cfg0.N) (p : Fin 10000) : Fin 100000 := ⟨t.val * 10000 + p.val, by have := point_lt t; omega⟩

/-- Point `t`'s block of the first window's array is its rows from `10000·t`. -/
theorem read0 (c : Dev nD) (t : Fin cfg0.N) (j : S10000x4.Idx) :
    (iblk m c 0 t : Vec F S10000x4 .f32) j
      = V m c main_v44 (ix2 (rowOf t ⟨(j 0).val, (j 0).isLt⟩) (⟨(j 1).val, (j 1).isLt⟩ : Fin 4)) := by
  obtain ⟨e00, e01, -⟩ := idx_facts t
  show V m c main_v44 (((cfg0.win 0).blk t).view.emb j) = _
  refine congrArg (V m c main_v44) (funext fun a => Fin.ext ?_)
  match a with
  | ⟨0, _⟩ => show win0_0.index t (0 : Fin 2) * 10000 + 1 * (j 0).val = t.val * 10000 + (j 0).val; rw [e00]; omega
  | ⟨1, _⟩ => show win0_0.index t (1 : Fin 2) * 4 + 1 * (j 1).val = (j 1).val; rw [e01]; omega

/-- Every point's block of the weights is the whole array. -/
theorem read1 (c : Dev nD) (t : Fin cfg0.N) (j : S4x128.Idx) :
    (iblk m c 1 t : Vec F S4x128 .f32) j = V m c main_arg2 j := by
  obtain ⟨-, -, e10, e11, -⟩ := idx_facts t
  show V m c main_arg2 (((cfg0.win 1).blk t).view.emb j) = _
  refine congrArg (V m c main_arg2) (funext fun a => Fin.ext ?_)
  match a with
  | ⟨0, _⟩ => show win0_1.index t (0 : Fin 2) * 4 + 1 * (j 0).val = (j 0).val; rw [e10]; omega
  | ⟨1, _⟩ => show win0_1.index t (1 : Fin 2) * 128 + 1 * (j 1).val = (j 1).val; rw [e11]; omega

/-- … and of the bias row. -/
theorem read2 (c : Dev nD) (t : Fin cfg0.N) (j : S1x128.Idx) :
    (iblk m c 2 t : Vec F S1x128 .f32) j = V m c main_v45 j := by
  obtain ⟨-, -, -, -, e20, e21, -⟩ := idx_facts t
  show V m c main_v45 (((cfg0.win 2).blk t).view.emb j) = _
  refine congrArg (V m c main_v45) (funext fun a => Fin.ext ?_)
  match a with
  | ⟨0, _⟩ => show win0_2.index t (0 : Fin 2) * 1 + 1 * (j 0).val = (j 0).val; rw [e20]; omega
  | ⟨1, _⟩ => show win0_2.index t (1 : Fin 2) * 128 + 1 * (j 1).val = (j 1).val; rw [e21]; omega

/-- What point `t` writes back, read at row `p`, column `q` of its block: the body's stored value of the point's blocks. -/
theorem flushed_at (c : Dev nD) (t : Fin cfg0.N) (j : S10000x128.Idx) :
    ((dats m 0 c).flushed 3 t : Vec F S10000x128 .f32) j = k0_pay1 (iblk m c 0 t) (iblk m c 1 t) (iblk m c 2 t) j := by
  rw [Value.flushed3]
  unfold out0_3
  rw [View.canon_unit_zero hz]
  simp only [View.ld_unit_zero (S := S10000x4) hz, View.ld_unit_zero (S := S4x128) hz, View.ld_unit_zero (S := S1x128) hz]
  rfl

/-- Where in the result array row `p`, column `q` of point `t`'s block sits. -/
theorem emb3 (t : Fin cfg0.N) (j : S10000x128.Idx) :
    (((cfg0.win 3).blk t).view.emb j : S100000x128.Idx)
      = ix2 (rowOf t ⟨(j 0).val, (j 0).isLt⟩) (⟨(j 1).val, (j 1).isLt⟩ : Fin 128) := by
  obtain ⟨-, -, -, -, -, -, e30, e31⟩ := idx_facts t
  funext a
  refine Fin.ext ?_
  match a with
  | ⟨0, _⟩ => show win0_3.index t (0 : Fin 2) * 10000 + 1 * (j 0).val = t.val * 10000 + (j 0).val; rw [e30]; omega
  | ⟨1, _⟩ => show win0_3.index t (1 : Fin 2) * 128 + 1 * (j 1).val = (j 1).val; rw [e31]; omega

/-- An index of the result is in point `t`'s block iff each coordinate is in the block's range on its axis. -/
theorem mem_blk (t : Fin cfg0.N) (i : S100000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v46).slice (win0_3.rect t)).set ↔ _
  rw [View.set_slice_whole, Rect.mem_set_unit]
  exact Iff.rfl

/-- The ten blocks cover the result: row `r` is in the block of point `r / 10000`. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 10 := N_0
  have ht : (i 0).val / 10000 < cfg0.N := by omega
  obtain ⟨-, -, -, -, -, -, e30, e31⟩ := idx_facts ⟨(i 0).val / 10000, ht⟩
  refine ⟨⟨(i 0).val / 10000, ht⟩, flush0_3 _, ?_⟩
  rw [mem_blk]
  intro a
  match a with
  | ⟨0, _⟩ =>
    show win0_3.index ⟨(i 0).val / 10000, ht⟩ (0 : Fin 2) * 10000 ≤ (i 0).val
      ∧ (i 0).val < win0_3.index ⟨(i 0).val / 10000, ht⟩ (0 : Fin 2) * 10000 + 10000
    rw [e30]
    show (i 0).val / 10000 * 10000 ≤ (i 0).val ∧ (i 0).val < (i 0).val / 10000 * 10000 + 10000
    omega
  | ⟨1, _⟩ =>
    show win0_3.index ⟨(i 0).val / 10000, ht⟩ (1 : Fin 2) * 128 ≤ (i 1).val
      ∧ (i 1).val < win0_3.index ⟨(i 0).val / 10000, ht⟩ (1 : Fin 2) * 128 + 128
    rw [e31]
    omega

/-! ## From the blocks to the array, for any whole-array function the body's stored value is a block of -/

/-- If the body's stored value of blocks that are rows `r p` of `A`, all of `W` and all of `b2` is rows `r p` of `L A W b2`,
    then WHAT POINT `t` WRITES BACK is block `t` of `L` of the arrays as the region finds them. -/
theorem flushed_eq_of
    (L : (S100000x4.Idx → Elt F .f32) → (S4x128.Idx → Elt F .f32) → (S1x128.Idx → Elt F .f32) → S100000x128.Idx → Elt F .f32)
    (hL : ∀ (A : S100000x4.Idx → Elt F .f32) (W : S4x128.Idx → Elt F .f32) (b2 : S1x128.Idx → Elt F .f32)
      (x0 : Vec F S10000x4 .f32) (x1 : Vec F S4x128 .f32) (x2 : Vec F S1x128 .f32) (r : Fin 10000 → Fin 100000),
      (∀ j : S10000x4.Idx, x0 j = A (ix2 (r ⟨(j 0).val, (j 0).isLt⟩) (⟨(j 1).val, (j 1).isLt⟩ : Fin 4))) →
      (∀ j : S4x128.Idx, x1 j = W j) → (∀ j : S1x128.Idx, x2 j = b2 j) →
      ∀ (p : Fin 10000) (q : Fin 128), k0_pay1 x0 x1 x2 (ix2 p q) = L A W b2 (ix2 (r p) q))
    (c : Dev nD) (t : Fin cfg0.N) :
    (dats m 0 c).flushed 3 t
      = ((cfg0.win 3).blk t).view.read (Elt F) (L (V m c main_v44) (V m c main_arg2) (V m c main_v45)) := by
  funext j
  rw [View.read_apply]
  obtain ⟨p, q, rfl⟩ : ∃ (p : Fin 10000) (q : Fin 128), j = ix2 p q := ⟨j 0, j 1, eq_ix2 j⟩
  rw [emb3]
  exact (flushed_at m c t (ix2 p q)).trans
    (hL (V m c main_v44) (V m c main_arg2) (V m c main_v45) (iblk m c 0 t) (iblk m c 1 t) (iblk m c 2 t) (rowOf t)
      (read0 m c t) (read1 m c t) (read2 m c t) p q)

/-- … and THE RESULT ARRAY after the run is `L` of them: the ten blocks cover it. -/
theorem final_of
    (L : (S100000x4.Idx → Elt F .f32) → (S4x128.Idx → Elt F .f32) → (S1x128.Idx → Elt F .f32) → S100000x128.Idx → Elt F .f32)
    (hL : ∀ (A : S100000x4.Idx → Elt F .f32) (W : S4x128.Idx → Elt F .f32) (b2 : S1x128.Idx → Elt F .f32)
      (x0 : Vec F S10000x4 .f32) (x1 : Vec F S4x128 .f32) (x2 : Vec F S1x128 .f32) (r : Fin 10000 → Fin 100000),
      (∀ j : S10000x4.Idx, x0 j = A (ix2 (r ⟨(j 0).val, (j 0).isLt⟩) (⟨(j 1).val, (j 1).isLt⟩ : Fin 4))) →
      (∀ j : S4x128.Idx, x1 j = W j) → (∀ j : S1x128.Idx, x2 j = b2 j) →
      ∀ (p : Fin 10000) (q : Fin 128), k0_pay1 x0 x1 x2 (ix2 p q) = L A W b2 (ix2 (r p) q))
    (c : Dev nD) :
    (dats m 0 c).arrAt 3 cfg0.N = L (V m c main_v44) (V m c main_arg2) (V m c main_v45) :=
  (dats m 0 c).arrAt_eq_of_cover 3 (L (V m c main_v44) (V m c main_arg2) (V m c main_v45))
    (fun t _ => flushed_eq_of m L hL c t) cover

/-- The frame run with the result array at `L` of the arrays the region finds, the arguments unchanged. -/
theorem run_of
    (L : (S100000x4.Idx → Elt F .f32) → (S4x128.Idx → Elt F .f32) → (S1x128.Idx → Elt F .f32) → S100000x128.Idx → Elt F .f32)
    (hL : ∀ (A : S100000x4.Idx → Elt F .f32) (W : S4x128.Idx → Elt F .f32) (b2 : S1x128.Idx → Elt F .f32)
      (x0 : Vec F S10000x4 .f32) (x1 : Vec F S4x128 .f32) (x2 : Vec F S1x128 .f32) (r : Fin 10000 → Fin 100000),
      (∀ j : S10000x4.Idx, x0 j = A (ix2 (r ⟨(j 0).val, (j 0).isLt⟩) (⟨(j 1).val, (j 1).isLt⟩ : Fin 4))) →
      (∀ j : S4x128.Idx, x1 j = W j) → (∀ j : S1x128.Idx, x2 j = b2 j) →
      ∀ (p : Fin 10000) (q : Fin 128), k0_pay1 x0 x1 x2 (ix2 p q) = L A W b2 (ix2 (r p) q)) :
    θ_run defs (onTc (τ := τ) (main (F := F))) ⟨m, fun _ => 0, ρ⟩ fun r => ∀ c : Dev nD,
      r.2.mem ((c : Thread nD τ).loc main_v46) = L (V m c main_v44) (V m c main_arg2) (V m c main_v45)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_of m L hL c), (h c).2⟩)
    (Cert.KernelIdeal.Value.run_blocks m ρ)

end Cert.KernelIdeal.Blocks

end
-- ==== Proof.LibRank2Layout.lean ====
/-
  Rank-2 layout operations read at an index given by its two coordinates.

  A column slice `x[:, c:c+1]` of an [a, n] array read at (p, 0) is x at (p, c); a row slice `x[c:c+1, :]` of an
  [n, b] array read at (0, q) is x at (c, q); a column [a, 1] broadcast along lanes to [a, b] reads, at (p, q), the
  column at (p, 0); a row [1, b] broadcast along sublanes to [a, b] reads, at (p, q), the row at (0, q).  Each is one
  instance of the library's read-at-an-index lemma for the operation, with the coordinate arithmetic discharged once
  for all sizes.  Last, two shape casts of one array read at indices with equal row-major positions are equal.
-/
import Idealize.ShloMosaic.Lib.ValueIdx
import Idealize.ShloMosaic.Lib.Pipeline.Value

namespace Idealize.ShloMosaic.Rank2

open Idealize.ShloMosaic Idealize.ShloMosaic.ValueIdx

variable {α : Type}

/-- A one-column slice at column offset `c` fits only if `c` is a column of the array. -/
theorem col_lt {a n c : Nat} (h : (⟨2, ![a, n]⟩ : Shape).Slices ![0, c] ⟨2, ![a, 1]⟩) : c < n := by
  have h1 := h.2 (1 : Fin 2)
  change c + 1 ≤ n at h1
  omega

/-- A one-row slice at row offset `c` fits only if `c` is a row of the array. -/
theorem row_lt {n b c : Nat} (h : (⟨2, ![n, b]⟩ : Shape).Slices ![c, 0] ⟨2, ![1, b]⟩) : c < n := by
  have h0 := h.2 (0 : Fin 2)
  change c + 1 ≤ n at h0
  omega

/-- The column slice `x[:, c:c+1]` at (p, 0) is `x` at (p, c). -/
theorem sliceCol_apply {a n c : Nat} (x : (⟨2, ![a, n]⟩ : Shape).Idx → α)
    (h : (⟨2, ![a, n]⟩ : Shape).Slices ![0, c] ⟨2, ![a, 1]⟩) (p : Fin a) (z : Fin 1) :
    extractStridedSlice (⟨2, ![a, 1]⟩ : Shape) ![0, c] x h (ix2 p z) = x (ix2 p (⟨c, col_lt h⟩ : Fin n)) :=
  extractStridedSlice_apply ![0, c] x h (ix2 p z) (ix2 p (⟨c, col_lt h⟩ : Fin n)) (fun d => match d with
    | ⟨0, _⟩ => by show p.val = 0 + p.val; omega
    | ⟨1, _⟩ => by show c = c + z.val; have := z.isLt; omega)

/-- The row slice `x[c:c+1, :]` at (0, q) is `x` at (c, q). -/
theorem sliceRow_apply {n b c : Nat} (x : (⟨2, ![n, b]⟩ : Shape).Idx → α)
    (h : (⟨2, ![n, b]⟩ : Shape).Slices ![c, 0] ⟨2, ![1, b]⟩) (z : Fin 1) (q : Fin b) :
    extractStridedSlice (⟨2, ![1, b]⟩ : Shape) ![c, 0] x h (ix2 z q) = x (ix2 (⟨c, row_lt h⟩ : Fin n) q) :=
  extractStridedSlice_apply ![c, 0] x h (ix2 z q) (ix2 (⟨c, row_lt h⟩ : Fin n) q) (fun d => match d with
    | ⟨0, _⟩ => by show c = c + z.val; have := z.isLt; omega
    | ⟨1, _⟩ => by show q.val = 0 + q.val; omega)

/-- A column broadcast along the second axis: entry (p, q) is the column's entry (p, 0). -/
theorem bcastCol_apply {a b : Nat} (v : (⟨2, ![a, 1]⟩ : Shape).Idx → α)
    (h : (⟨2, ![a, 1]⟩ : Shape).Broadcasts ⟨2, ![a, b]⟩) (p : Fin a) (q : Fin b) :
    broadcastTo (⟨2, ![a, b]⟩ : Shape) v h (ix2 p q) = v (ix2 p (0 : Fin 1)) :=
  broadcastTo_apply v h (ix2 p q) (ix2 p (0 : Fin 1)) (fun d => match d with
    | ⟨0, _⟩ => by
        show p.val = if a = 1 then 0 else p.val
        by_cases ha : a = 1
        · rw [if_pos ha]; have := p.isLt; omega
        · rw [if_neg ha]
    | ⟨1, _⟩ => by show 0 = if (1 : Nat) = 1 then 0 else q.val; rw [if_pos rfl])

/-- A row broadcast along the first axis: entry (p, q) is the row's entry (0, q). -/
theorem bcastRow_apply {a b : Nat} (v : (⟨2, ![1, b]⟩ : Shape).Idx → α)
    (h : (⟨2, ![1, b]⟩ : Shape).Broadcasts ⟨2, ![a, b]⟩) (p : Fin a) (q : Fin b) :
    broadcastTo (⟨2, ![a, b]⟩ : Shape) v h (ix2 p q) = v (ix2 (0 : Fin 1) q) :=
  broadcastTo_apply v h (ix2 p q) (ix2 (0 : Fin 1) q) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb])

end Idealize.ShloMosaic.Rank2

namespace Idealize.ShloMosaic

/-- Two shape casts of one array agree at indices with the same row-major position. -/
theorem shapeCast_eq_shapeCast {α : Type} {s t u : Shape} (x : s.Idx → α) (h : s.ShapeCasts t) (h' : s.ShapeCasts u)
    (j : t.Idx) (k : u.Idx) (e : (t.rowMajor j).val = (u.rowMajor k).val) :
    shapeCast t x h j = shapeCast u x h' k := by
  unfold shapeCast
  exact congrArg x (Shape.reshapeEquiv_eq_of_rowMajor h ((Shape.rowMajor_reshapeEquiv h' k).trans e.symm))

end Idealize.ShloMosaic
-- ==== Proof.KernelPayload.lean ====
/-
  The kernel body's one stored value, read at an index: the product of the loaded `[10000, 4]` block of aggregated features
  with the `[4, 128]` weights, as a sum over the four features, plus the bias row.  (The roundings to bf16 on the way into
  the matrix unit are the identity on extended reals, and the accumulator is the zero splat.)
-/
import proofs.«143462_j47519518163429_2_alg».proof.Proof.Gen.KernelIdeal.Skeleton
import proofs.«143462_j47519518163429_2_alg».proof.Proof.LibRank2Layout
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The matrix product's left operand index at output (p, q) and contraction coordinate k is (p, k). -/
theorem lhs_at (p : Fin 10000) (q : Fin 128) (k : Fin 4) :
    dot_S10000x4_S4x128_S10000x128_1_0_0_1_n_n.lhsIdx (ix2 p q)
      ((contrEquiv1 dot_S10000x4_S4x128_S10000x128_1_0_0_1_n_n 4 rfl rfl).symm k) = ix2 p k := by
  have hk := contrEquiv1_symm_val dot_S10000x4_S4x128_S10000x128_1_0_0_1_n_n 4 rfl rfl k
  funext a
  refine Fin.ext ?_
  match a with
  | ⟨0, _⟩ =>
    show (dot_S10000x4_S4x128_S10000x128_1_0_0_1_n_n.lhsIdx (ix2 p q) _ 0).val = p.val
    unfold DotDims.lhsIdx
    rw [dif_neg (show ¬(0 : Fin S10000x4.rank) ∈ dot_S10000x4_S4x128_S10000x128_1_0_0_1_n_n.lhsBatch by decide),
      dif_pos (show (0 : Fin S10000x4.rank) ∈ dot_S10000x4_S4x128_S10000x128_1_0_0_1_n_n.lhsNonContracting by decide)]
    rfl
  | ⟨1, _⟩ =>
    exact (dot_S10000x4_S4x128_S10000x128_1_0_0_1_n_n.lhsIdx_val_of_single rfl (ix2 p q) _).trans hk

/-- … and the right operand index is (k, q). -/
theorem rhs_at (p : Fin 10000) (q : Fin 128) (k : Fin 4) :
    dot_S10000x4_S4x128_S10000x128_1_0_0_1_n_n.rhsIdx (ix2 p q)
      ((contrEquiv1 dot_S10000x4_S4x128_S10000x128_1_0_0_1_n_n 4 rfl rfl).symm k) = ix2 k q := by
  have hk := contrEquiv1_symm_val dot_S10000x4_S4x128_S10000x128_1_0_0_1_n_n 4 rfl rfl k
  funext a
  refine Fin.ext ?_
  match a with
  | ⟨0, _⟩ =>
    exact (dot_S10000x4_S4x128_S10000x128_1_0_0_1_n_n.rhsIdx_val_of_single rfl (ix2 p q) _).trans hk
  | ⟨1, _⟩ =>
    show (dot_S10000x4_S4x128_S10000x128_1_0_0_1_n_n.rhsIdx (ix2 p q) _ 1).val = q.val
    unfold DotDims.rhsIdx
    rw [dif_neg (show ¬(1 : Fin S4x128.rank) ∈ dot_S10000x4_S4x128_S10000x128_1_0_0_1_n_n.rhsBatch by decide),
      dif_pos (show (1 : Fin S4x128.rank) ∈ dot_S10000x4_S4x128_S10000x128_1_0_0_1_n_n.rhsNonContracting by decide)]
    rfl

/-- THE STORED VALUE AT (p, q): `∑ k, a (p, k) · w (k, q) + bias (0, q)`. -/
theorem pay_at (x0 : Vec Ideal S10000x4 .f32) (x1 : Vec Ideal S4x128 .f32) (x2 : Vec Ideal S1x128 .f32) (p : Fin 10000) (q : Fin 128) :
    k0_pay1 (F := Ideal) x0 x1 x2 (ix2 p q) = (∑ k : Fin 4, x0 (ix2 p k) * x1 (ix2 k q)) + x2 (ix2 (0 : Fin 1) q) := by
  show addf (F := Ideal) (matmul dot_S10000x4_S4x128_S10000x128_1_0_0_1_n_n none
        (truncf .bf16 (shapeCast S10000x4 (x0 : FVec Ideal S10000x4 .f32) shapeCasts_S10000x4_S10000x4) bitsLt_bf16_f32)
        (truncf .bf16 (x1 : FVec Ideal S4x128 .f32) bitsLt_bf16_f32) (constant S10000x128 .f32 0x00000000#32))
      (broadcastTo S10000x128 (shapeCast S1x128 (x2 : FVec Ideal S1x128 .f32) shapeCasts_S1x128_S1x128) broadcasts_S1x128_S10000x128)
      (ix2 p q) = _
  rw [addf_apply, shapeCast_self, shapeCast_self]
  refine congrArg₂ (· + ·) ?_ (Rank2.bcastRow_apply x2 broadcasts_S1x128_S10000x128 p q)
  refine (Ideal.matmul_constant_zero_apply dot_S10000x4_S4x128_S10000x128_1_0_0_1_n_n none _ _ (ix2 p q)).trans ?_
  rw [← Equiv.sum_comp (contrEquiv1 dot_S10000x4_S4x128_S10000x128_1_0_0_1_n_n 4 rfl rfl).symm]
  refine Finset.sum_congr rfl fun k _ => ?_
  show x0 (dot_S10000x4_S4x128_S10000x128_1_0_0_1_n_n.lhsIdx (ix2 p q) _) * x1 (dot_S10000x4_S4x128_S10000x128_1_0_0_1_n_n.rhsIdx (ix2 p q) _) = _
  rw [lhs_at, rhs_at]

end Cert.KernelIdeal.Payload

end
-- ==== Proof.LibBroadcastInDim2.lean ====
/-
  The host's `broadcast_in_dim` between ranks 1 and 2, read at an index given by its coordinates, for any sizes:
  a vector `[a]` as a column `[a, 1]` (dims = [0]) and as a row `[1, b]` (dims = [1]); a column `[a, 1]` along the second axis
  to `[a, b]` and a row `[1, b]` along the first axis to `[a, b]` (dims = [0, 1]).  Each is one instance of the library's
  read-at-an-index lemma for the operation, the coordinate arithmetic discharged once for all sizes.
-/
import Idealize.ShloMosaic.Lib.ValueIdx
import Idealize.ShloMosaic.Lib.Pipeline.Value

namespace Idealize.ShloMosaic.BroadcastInDim2

open Idealize.ShloMosaic Idealize.ShloMosaic.ValueIdx

variable {α : Type}

/-- A vector as a column: entry (p, 0) is the vector's entry p. -/
theorem vecToCol_apply {a : Nat} (v : (⟨1, ![a]⟩ : Shape).Idx → α)
    (h : (⟨1, ![a]⟩ : Shape).BroadcastsInDim ⟨2, ![a, 1]⟩ (![0] : Fin 1 → Fin 2)) (p : Fin a) (z : Fin 1) :
    broadcastInDim (⟨2, ![a, 1]⟩ : Shape) (![0] : Fin 1 → Fin 2) h v (ix2 p z) = v (ix1 p) :=
  broadcastInDim_apply (![0] : Fin 1 → Fin 2) h v (ix2 p z) (ix1 p) (fun d => match d with
    | ⟨0, _⟩ => by
        show p.val = if a = 1 then 0 else p.val
        by_cases ha : a = 1
        · rw [if_pos ha]; have := p.isLt; omega
        · rw [if_neg ha])

/-- A vector as a row: entry (0, q) is the vector's entry q. -/
theorem vecToRow_apply {b : Nat} (v : (⟨1, ![b]⟩ : Shape).Idx → α)
    (h : (⟨1, ![b]⟩ : Shape).BroadcastsInDim ⟨2, ![1, b]⟩ (![1] : Fin 1 → Fin 2)) (z : Fin 1) (q : Fin b) :
    broadcastInDim (⟨2, ![1, b]⟩ : Shape) (![1] : Fin 1 → Fin 2) h v (ix2 z q) = v (ix1 q) :=
  broadcastInDim_apply (![1] : Fin 1 → Fin 2) h v (ix2 z q) (ix1 q) (fun d => match d with
    | ⟨0, _⟩ => by
        show q.val = if b = 1 then 0 else q.val
        by_cases hb : b = 1
        · rw [if_pos hb]; have := q.isLt; omega
        · rw [if_neg hb])

/-- A column along the second axis: entry (p, q) is the column's entry (p, 0). -/
theorem colToMat_apply {a b : Nat} (v : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim (⟨2, ![a, b]⟩ : Shape) (![0, 1] : Fin 2 → Fin 2) h v (ix2 p q) = v (ix2 p (0 : Fin 1)) :=
  broadcastInDim_apply (![0, 1] : Fin 2 → Fin 2) h v (ix2 p q) (ix2 p (0 : Fin 1)) (fun d => match d with
    | ⟨0, _⟩ => by
        show p.val = if a = 1 then 0 else p.val
        by_cases ha : a = 1
        · rw [if_pos ha]; have := p.isLt; omega
        · rw [if_neg ha]
    | ⟨1, _⟩ => by show 0 = if (1 : Nat) = 1 then 0 else q.val; rw [if_pos rfl])

/-- A row along the first axis: entry (p, q) is the row's entry (0, q). -/
theorem rowToMat_apply {a b : Nat} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim (⟨2, ![a, b]⟩ : Shape) (![0, 1] : Fin 2 → Fin 2) h v (ix2 p q) = v (ix2 (0 : Fin 1) q) :=
  broadcastInDim_apply (![0, 1] : Fin 2 → Fin 2) h v (ix2 p q) (ix2 (0 : Fin 1) q) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb])

end Idealize.ShloMosaic.BroadcastInDim2
-- ==== Proof.KernelValue.lean ====
/-
  The kernel, read: what its result array holds after the run, as one function of the argument arrays.

  Point `t` of the grid stores the product of its block of the aggregated features with the weights, plus the bias, into
  its block of the result; the blocks are rows `10000·t …` of the arrays (Proof/KernelBlocks.lean), so the result is, row by
  row, the aggregate times the weights plus the bias (`lin`), the ten blocks tiling it.  With the aggregate read at an index — the scatter-add as
  a sum over the edges that land on the node, the row gather as the source's row, the two broadcasts as the edge's
  coefficient — that is the aggregate-first form of the specification (`Cert.Spec.outAggFirst`).
-/
import proofs.«143462_j47519518163429_2_alg».proof.Proof.KernelBlocks
import proofs.«143462_j47519518163429_2_alg».proof.Proof.KernelHost
import proofs.«143462_j47519518163429_2_alg».proof.Proof.KernelPayload
import proofs.«143462_j47519518163429_2_alg».proof.Proof.Spec
import proofs.«143462_j47519518163429_2_alg».proof.Proof.LibBroadcastInDim2
import Idealize.ShloMosaic.Lib.Pipeline.Value
import Idealize.ShloMosaic.Lib.ValueIdx
import Idealize.ShloMosaic.PureOps.Ideal.Laws

noncomputable section

open scoped BigOperators

namespace Cert.KernelIdeal.AggValue

open Cert.KernelIdeal Cert.KernelIdeal.Gen Cert.KernelIdeal.Agg Idealize.ShloMosaic Idealize.ShloMosaic.TcCoe Idealize.SL.Sem
open Idealize.ShloMosaic.ValueIdx Idealize.ShloMosaic.RowIndexing Idealize.ShloMosaic.BroadcastInDim2
open Idealize.ShloMosaic.Pipeline (Dat)

/-- Rows of `A` times `W` plus the bias row: the whole-array function whose blocks the grid points write. -/
def lin (A : FVec Ideal S100000x4 .f32) (W : FVec Ideal S4x128 .f32) (b2 : FVec Ideal S1x128 .f32) : FVec Ideal S100000x128 .f32 :=
  fun i => (∑ k : Fin 4, A (ix2 (⟨(i 0).val, idx2_lt0 i⟩ : Fin 100000) k) * W (ix2 k (⟨(i 1).val, idx2_lt1 i⟩ : Fin 128)))
    + b2 (ix2 (0 : Fin 1) (⟨(i 1).val, idx2_lt1 i⟩ : Fin 128))

/-- Blocks that are rows `r p` of `A`, all of `W` and all of the bias row give, through the body's stored value, the
    rows `r p` of `lin`. -/
theorem block_eq (A : FVec Ideal S100000x4 .f32) (W : FVec Ideal S4x128 .f32) (b2 : FVec Ideal S1x128 .f32)
    (x0 : Vec Ideal S10000x4 .f32) (x1 : Vec Ideal S4x128 .f32) (x2 : Vec Ideal S1x128 .f32) (r : Fin 10000 → Fin 100000)
    (h0 : ∀ j : S10000x4.Idx, x0 j = A (ix2 (r ⟨(j 0).val, (j 0).isLt⟩) (⟨(j 1).val, (j 1).isLt⟩ : Fin 4)))
    (h1 : ∀ j : S4x128.Idx, x1 j = W j) (h2 : ∀ j : S1x128.Idx, x2 j = b2 j) (p : Fin 10000) (q : Fin 128) :
    k0_pay1 (F := Ideal) x0 x1 x2 (ix2 p q) = lin A W b2 (ix2 (r p) q) := by
  refine (Payload.pay_at x0 x1 x2 p q).trans ?_
  unfold lin
  rw [h2]
  refine congrArg (· + b2 (ix2 (0 : Fin 1) q)) (Finset.sum_congr rfl fun k _ => ?_)
  rw [h0, h1]

variable (m : (ℓ : Loc nD τ sig) → Buf (Elt Ideal) ℓ) (ρ : Dev nD → PrngReg)

/-! ## The result as the aggregate-first form of the specification -/

/-- The aggregate read at (n, k): the sum over the edges that land on node n. -/
theorem agg_at (x : FVec Ideal S100000x4 .f32) (e1 : IVec S2x640000 32) (n : Fin 100000) (k : Fin 4) :
    agg (F := Ideal) x e1 (ix2 n k) = Cert.Spec.aggAt x (rowNIdx e1) (colIdx e1) (nrm (F := Ideal) e1) n k := by
  unfold agg
  have hs := scatterAdd_rows_apply (N := 100000) (E := 740000) (C := 4) scatter_S100000x4_S740000x1_S740000x4_1_0_0_1_wf (colIdx e1)
    (φ := .f32) (broadcastInDim S100000x4 ![] bcast_S_S100000x4 (constant S_ .f32 0x00000000#32))
    (mulf (Host.gather gather_S100000x4_S740000x1_S740000x4_1_0_n_n_0_1_14 x (rowNIdx e1))
      (broadcastInDim S740000x4 ![0, 1] bcast_S740000x1_S740000x4_0_1 (broadcastInDim S740000x1 ![0] bcast_S740000_S740000x1_0 (nrm (F := Ideal) e1))))
    n k
  refine hs.trans ?_
  unfold Cert.Spec.aggAt
  have hz0 : broadcastInDim S100000x4 ![] bcast_S_S100000x4 (constant (F := Ideal) S_ .f32 0x00000000#32) (ix2 n k) = 0 :=
    Ideal.ofBits_zero_f32
  rw [hz0, zero_add]
  refine Finset.sum_congr rfl fun e _ => ?_
  refine if_congr Iff.rfl ?_ rfl
  rw [mulf_apply]
  have hg : Host.gather gather_S100000x4_S740000x1_S740000x4_1_0_n_n_0_1_14 x (rowNIdx e1) (ix2 e k)
      = x (ix2 (Cert.Spec.srcRow (rowNIdx e1) e) k) :=
    gather_rows_apply (N := 100000) (E := 740000) (C := 4) (by decide) gather_S100000x4_S740000x1_S740000x4_1_0_n_n_0_1_14_wf
      x (rowNIdx e1) e k
  have hn : broadcastInDim S740000x4 ![0, 1] bcast_S740000x1_S740000x4_0_1
      (broadcastInDim S740000x1 ![0] bcast_S740000_S740000x1_0 (nrm (F := Ideal) e1)) (ix2 e k) = nrm (F := Ideal) e1 (ix1 e) :=
    (colToMat_apply _ bcast_S740000x1_S740000x4_0_1 e k).trans (vecToCol_apply (nrm (F := Ideal) e1) bcast_S740000_S740000x1_0 e 0)
  rw [hg, hn]

/-- The bias as a `[1, 128]` row read at (0, q). -/
theorem bias_at (b : FVec Ideal S128 .f32) (z : Fin 1) (q : Fin 128) :
    shapeCast S1x128 b shapeCasts_S128_S1x128 (ix2 z q) = b (ix1 q) :=
  shapeCast_apply b shapeCasts_S128_S1x128 (ix2 z q) (ix1 q) (by
    rw [Shape.rowMajor_val_one, Shape.rowMajor_val_two]
    show q.val = z.val * 128 + q.val
    have := z.isLt
    omega)

/-- `lin` of the arrays the region finds is the aggregate-first form of the specification, of the argument arrays. -/
theorem lin_eq (c : Dev nD) :
    lin (V m c main_v44) (V m c main_arg2) (V m c main_v45)
      = Cert.Spec.outAggFirst (m ((c : Thread nD τ).loc main_arg0)) (m ((c : Thread nD τ).loc main_arg2))
          (m ((c : Thread nD τ).loc main_arg3)) (rowNIdx (m ((c : Thread nD τ).loc main_arg1)))
          (colIdx (m ((c : Thread nD τ).loc main_arg1))) (nrm (F := Ideal) (m ((c : Thread nD τ).loc main_arg1))) := by
  funext i
  obtain ⟨n, q, rfl⟩ : ∃ (n : Fin 100000) (q : Fin 128), i = ix2 n q := ⟨i 0, i 1, eq_ix2 i⟩
  unfold lin Cert.Spec.outAggFirst
  rw [V_agg, V_main_arg2, V_bias]
  refine congrArg₂ (· + ·) (Finset.sum_congr rfl fun k _ => ?_) (bias_at _ _ _)
  rw [agg_at]

/-- The run, read: the result array at the aggregate-first form of the specification, the arguments unchanged. -/
theorem run : θ_run defs (onTc (τ := τ) (main (F := Ideal))) ⟨m, fun _ => 0, ρ⟩ fun r => ∀ c : Dev nD,
      r.2.mem ((c : Thread nD τ).loc main_v46)
        = Cert.Spec.outAggFirst (m ((c : Thread nD τ).loc main_arg0)) (m ((c : Thread nD τ).loc main_arg2))
          (m ((c : Thread nD τ).loc main_arg3)) (rowNIdx (m ((c : Thread nD τ).loc main_arg1)))
          (colIdx (m ((c : Thread nD τ).loc main_arg1))) (nrm (F := Ideal) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (lin_eq m c), (h c).2⟩)
    (Blocks.run_of (F := Ideal) m ρ lin block_eq)

end Cert.KernelIdeal.AggValue

end
-- ==== Proof.RefValue.lean ====
/-
  The reference, read: its run ends with the result array at `result` of the arguments — the 128-wide transformed
  features `x · W` gathered along every edge, scaled by the edge's coefficient, added up per target node, plus the bias —,
  and `result`, index by index, is the map-first form of the specification (`Cert.Spec.outMapFirst`): the scatter-add read
  at (n, q) is the sum over the edges whose target is n, the row gather reads the source's row, the matrix product is
  the sum over the four input features, and the two broadcasts read the coefficient of the edge and the bias of the
  channel.
-/
import proofs.«143462_j47519518163429_2_alg».proof.Proof.RefRun
import proofs.«143462_j47519518163429_2_alg».proof.Proof.Spec
import proofs.«143462_j47519518163429_2_alg».proof.Proof.LibBroadcastInDim2
import Idealize.ShloMosaic.Lib.Pipeline.Value
import Idealize.ShloMosaic.Lib.ValueIdx
import Idealize.ShloMosaic.PureOps.Ideal.Laws

noncomputable section

open scoped BigOperators

namespace Cert.ReferenceIdeal.Agg

open Cert.ReferenceIdeal Cert.ReferenceIdeal.Gen Idealize.ShloMosaic Idealize.ShloMosaic.TcCoe Idealize.SL.Sem
open Idealize.ShloMosaic.ValueIdx Idealize.ShloMosaic.RowIndexing Idealize.ShloMosaic.BroadcastInDim2

variable {F : FTy → Type} [FloatOps F]

/-! ## The reference's host operations, as functions of the edge list -/

/-- Row `r` of the edge list followed by one self loop per node: the sources (`r = 0`) or targets (`r = 1`) of all edges. -/
def ends0 (e1 : IVec S2x640000 32) : IVec S740000 32 :=
  concatenate S740000 0 [⟨S640000, shapeCast _ (extractStridedSlice S1x640000 ![0, 0] e1 slices_S2x640000_S1x640000_0_0) shapeCasts_S1x640000_S640000⟩,
    ⟨S100000, iotaInDim S100000 32 0⟩] concatenates_S640000_S100000_S740000_d0
def ends1 (e1 : IVec S2x640000 32) : IVec S740000 32 :=
  concatenate S740000 0 [⟨S640000, shapeCast _ (extractStridedSlice S1x640000 ![1, 0] e1 slices_S2x640000_S1x640000_1_0) shapeCasts_S1x640000_S640000⟩,
    ⟨S100000, iotaInDim S100000 32 0⟩] concatenates_S640000_S100000_S740000_d0

/-- A negative node number counted from the end, as jnp indexing normalises it before a gather. -/
def wrapNeg (v : IVec S740000 32) : IVec S740000 32 :=
  select (cmpi .slt v (broadcastInDim S740000 ![] bcast_S_S740000 (constantI S_ 32 0#32)))
    (addi v (broadcastInDim S740000 ![] bcast_S_S740000 (constantI S_ 32 100000#32))) v

/-- The targets as the `[E, 1]` index array of the scatters. -/
def colIdx (e1 : IVec S2x640000 32) : IVec S740000x1 32 := broadcastInDim S740000x1 ![0] bcast_S740000_S740000x1_0 (ends1 e1)
/-- The normalised sources and targets as the `[E, 1]` index arrays of the gathers. -/
def rowNIdx (e1 : IVec S2x640000 32) : IVec S740000x1 32 := broadcastInDim S740000x1 ![0] bcast_S740000_S740000x1_0 (wrapNeg (ends0 e1))
def colNIdx (e1 : IVec S2x640000 32) : IVec S740000x1 32 := broadcastInDim S740000x1 ![0] bcast_S740000_S740000x1_0 (wrapNeg (ends1 e1))

/-- The in-degree of every node (self loop included). -/
def deg (e1 : IVec S2x640000 32) : FVec F S100000 .f32 :=
  Host.scatterAdd scatter_S100000_S740000x1_S740000_n_0_0_1 (broadcastInDim S100000 ![] bcast_S_S100000 (constant S_ .f32 0x00000000#32))
    (colIdx e1) (broadcastInDim S740000 ![] bcast_S_S740000 (constant S_ .f32 0x3F800000#32))

/-- `deg^(-1/2)` where the degree is positive, `0` elsewhere. -/
def dis (e1 : IVec S2x640000 32) : FVec F S100000 .f32 :=
  select (cmpf (F := F) .ogt (deg e1) (broadcastInDim S100000 ![] bcast_S_S100000 (constant S_ .f32 0x00000000#32)))
    (Host.rsqrt (maximumf (deg e1) (broadcastInDim S100000 ![] bcast_S_S100000 (constant S_ .f32 0x2B8CBCCC#32))))
    (broadcastInDim S100000 ![] bcast_S_S100000 (id (constant S_ .f32 0x00000000#32)))

/-- The coefficient of every edge: `dis` at its source times `dis` at its target. -/
def nrm (e1 : IVec S2x640000 32) : FVec F S740000 .f32 :=
  mulf (Host.gather gather_S100000_S740000x1_S740000_n_0_n_n_0_1_1 (dis e1) (rowNIdx e1))
    (Host.gather gather_S100000_S740000x1_S740000_n_0_n_n_0_1_1 (dis e1) (colNIdx e1))

/-- The reference's result as one term over these. -/
def result (x : FVec Ideal S100000x4 .f32) (e1 : IVec S2x640000 32) (W : FVec Ideal S4x128 .f32) (b : FVec Ideal S128 .f32) :
    FVec Ideal S100000x128 .f32 :=
  addf (Host.scatterAdd scatter_S100000x128_S740000x1_S740000x128_1_0_0_1
      (broadcastInDim S100000x128 ![] bcast_S_S100000x128 (constant S_ .f32 0x00000000#32)) (colIdx e1)
      (mulf (Host.gather gather_S100000x128_S740000x1_S740000x128_1_0_n_n_0_1_1128
          (Host.dotGeneral dot_S100000x4_S4x128_S100000x128_1_0_0_1_n_n none x W) (rowNIdx e1))
        (broadcastInDim S740000x128 ![0, 1] bcast_S740000x1_S740000x128_0_1 (broadcastInDim S740000x1 ![0] bcast_S740000_S740000x1_0 (nrm (F := Ideal) e1)))))
    (broadcastInDim S100000x128 ![0, 1] bcast_S1x128_S100000x128_0_1 (broadcastInDim S1x128 ![1] bcast_S128_S1x128_1 b))

variable (m : (ℓ : Loc nD τ sig) → Buf (Elt Ideal) ℓ)

set_option maxRecDepth 8192 in
set_option maxHeartbeats 4000000 in
/-- The run's result term is `result` of the argument arrays. -/
theorem res_eq (c : Dev nD) : ValueP.res_main_v48 (F := Ideal) m c
    = result (m ((c.tc : Thread nD τ).loc main_arg0)) (m ((c.tc : Thread nD τ).loc main_arg1))
        (m ((c.tc : Thread nD τ).loc main_arg2)) (m ((c.tc : Thread nD τ).loc main_arg3)) := by
  unfold ValueP.res_main_v48 result nrm dis deg colIdx rowNIdx colNIdx wrapNeg ends0 ends1
  rfl

/-! ## The result read at an index -/

/-- The matrix product's left operand index at output (r, q) and contraction coordinate k is (r, k). -/
theorem lhs_at (r : Fin 100000) (q : Fin 128) (k : Fin 4) :
    dot_S100000x4_S4x128_S100000x128_1_0_0_1_n_n.lhsIdx (ix2 r q)
      ((contrEquiv1 dot_S100000x4_S4x128_S100000x128_1_0_0_1_n_n 4 rfl rfl).symm k) = ix2 r k := by
  have hk := contrEquiv1_symm_val dot_S100000x4_S4x128_S100000x128_1_0_0_1_n_n 4 rfl rfl k
  funext a
  refine Fin.ext ?_
  match a with
  | ⟨0, _⟩ =>
    show (dot_S100000x4_S4x128_S100000x128_1_0_0_1_n_n.lhsIdx (ix2 r q) _ 0).val = r.val
    unfold DotDims.lhsIdx
    rw [dif_neg (show ¬(0 : Fin S100000x4.rank) ∈ dot_S100000x4_S4x128_S100000x128_1_0_0_1_n_n.lhsBatch by decide),
      dif_pos (show (0 : Fin S100000x4.rank) ∈ dot_S100000x4_S4x128_S100000x128_1_0_0_1_n_n.lhsNonContracting by decide)]
    rfl
  | ⟨1, _⟩ =>
    exact (dot_S100000x4_S4x128_S100000x128_1_0_0_1_n_n.lhsIdx_val_of_single rfl (ix2 r q) _).trans hk

/-- … and the right operand index is (k, q). -/
theorem rhs_at (r : Fin 100000) (q : Fin 128) (k : Fin 4) :
    dot_S100000x4_S4x128_S100000x128_1_0_0_1_n_n.rhsIdx (ix2 r q)
      ((contrEquiv1 dot_S100000x4_S4x128_S100000x128_1_0_0_1_n_n 4 rfl rfl).symm k) = ix2 k q := by
  have hk := contrEquiv1_symm_val dot_S100000x4_S4x128_S100000x128_1_0_0_1_n_n 4 rfl rfl k
  funext a
  refine Fin.ext ?_
  match a with
  | ⟨0, _⟩ =>
    exact (dot_S100000x4_S4x128_S100000x128_1_0_0_1_n_n.rhsIdx_val_of_single rfl (ix2 r q) _).trans hk
  | ⟨1, _⟩ =>
    show (dot_S100000x4_S4x128_S100000x128_1_0_0_1_n_n.rhsIdx (ix2 r q) _ 1).val = q.val
    unfold DotDims.rhsIdx
    rw [dif_neg (show ¬(1 : Fin S4x128.rank) ∈ dot_S100000x4_S4x128_S100000x128_1_0_0_1_n_n.rhsBatch by decide),
      dif_pos (show (1 : Fin S4x128.rank) ∈ dot_S100000x4_S4x128_S100000x128_1_0_0_1_n_n.rhsNonContracting by decide)]
    rfl

/-- The transformed features of node `r`, channel `q`: the sum over the four input features. -/
theorem dot_at (x : FVec Ideal S100000x4 .f32) (W : FVec Ideal S4x128 .f32) (r : Fin 100000) (q : Fin 128) :
    Host.dotGeneral dot_S100000x4_S4x128_S100000x128_1_0_0_1_n_n none x W (ix2 r q) = ∑ k : Fin 4, x (ix2 r k) * W (ix2 k q) := by
  simp only [Host.dotGeneral]
  rw [Ideal.dotGeneral_apply, ← Equiv.sum_comp (contrEquiv1 dot_S100000x4_S4x128_S100000x128_1_0_0_1_n_n 4 rfl rfl).symm]
  refine Finset.sum_congr rfl fun k _ => ?_
  rw [lhs_at, rhs_at]

/-- THE REFERENCE'S RESULT is the map-first form of the specification. -/
theorem result_eq (x : FVec Ideal S100000x4 .f32) (e1 : IVec S2x640000 32) (W : FVec Ideal S4x128 .f32) (b : FVec Ideal S128 .f32) :
    result x e1 W b = Cert.Spec.outMapFirst x W b (rowNIdx e1) (colIdx e1) (nrm (F := Ideal) e1) := by
  funext i
  obtain ⟨n, q, rfl⟩ : ∃ (n : Fin 100000) (q : Fin 128), i = ix2 n q := ⟨i 0, i 1, eq_ix2 i⟩
  unfold result
  rw [addf_apply]
  have hb : broadcastInDim S100000x128 ![0, 1] bcast_S1x128_S100000x128_0_1 (broadcastInDim S1x128 ![1] bcast_S128_S1x128_1 b) (ix2 n q)
      = b (ix1 q) :=
    (rowToMat_apply _ bcast_S1x128_S100000x128_0_1 n q).trans (vecToRow_apply b bcast_S128_S1x128_1 0 q)
  have hs := scatterAdd_rows_apply (N := 100000) (E := 740000) (C := 128) scatter_S100000x128_S740000x1_S740000x128_1_0_0_1_wf (colIdx e1)
    (φ := .f32) (broadcastInDim S100000x128 ![] bcast_S_S100000x128 (constant S_ .f32 0x00000000#32))
    (mulf (Host.gather gather_S100000x128_S740000x1_S740000x128_1_0_n_n_0_1_1128
          (Host.dotGeneral dot_S100000x4_S4x128_S100000x128_1_0_0_1_n_n none x W) (rowNIdx e1))
        (broadcastInDim S740000x128 ![0, 1] bcast_S740000x1_S740000x128_0_1 (broadcastInDim S740000x1 ![0] bcast_S740000_S740000x1_0 (nrm (F := Ideal) e1))))
    n q
  refine (congrArg₂ (· + ·) hs hb).trans ?_
  unfold Cert.Spec.outMapFirst
  refine congrArg (· + b (ix1 q)) ?_
  have hz : broadcastInDim S100000x128 ![] bcast_S_S100000x128 (constant (F := Ideal) S_ .f32 0x00000000#32) (ix2 n q) = 0 :=
    Ideal.ofBits_zero_f32
  rw [hz, zero_add]
  refine Finset.sum_congr rfl fun e _ => ?_
  refine if_congr Iff.rfl ?_ rfl
  rw [mulf_apply]
  have hg : Host.gather gather_S100000x128_S740000x1_S740000x128_1_0_n_n_0_1_1128
      (Host.dotGeneral dot_S100000x4_S4x128_S100000x128_1_0_0_1_n_n none x W) (rowNIdx e1) (ix2 e q)
      = ∑ k : Fin 4, x (ix2 (Cert.Spec.srcRow (rowNIdx e1) e) k) * W (ix2 k q) :=
    (gather_rows_apply (N := 100000) (E := 740000) (C := 128) (by decide) gather_S100000x128_S740000x1_S740000x128_1_0_n_n_0_1_1128_wf
      (Host.dotGeneral dot_S100000x4_S4x128_S100000x128_1_0_0_1_n_n none x W) (rowNIdx e1) e q).trans
      (dot_at x W (Cert.Spec.srcRow (rowNIdx e1) e) q)
  have hn : broadcastInDim S740000x128 ![0, 1] bcast_S740000x1_S740000x128_0_1
      (broadcastInDim S740000x1 ![0] bcast_S740000_S740000x1_0 (nrm (F := Ideal) e1)) (ix2 e q) = nrm (F := Ideal) e1 (ix1 e) :=
    (colToMat_apply _ bcast_S740000x1_S740000x128_0_1 e q).trans (vecToCol_apply (nrm (F := Ideal) e1) bcast_S740000_S740000x1_0 e 0)
  rw [hg, hn]

end Cert.ReferenceIdeal.Agg

end
-- ==== Proof.lean ====
/-
  The kernel computes one graph-convolution layer by aggregating the 4-wide node features along the edges first —
  each edge carries its source's features times the edge's coefficient to its target, where they are added up — and
  multiplying the aggregate by the `[4, 128]` weights afterwards, in ten blocks of 10000 nodes; the reference multiplies
  every node's features by the weights first and aggregates the 128-wide rows.  Both add the bias last.  Both take the
  same edges and the same coefficients: the coefficient of an edge is the product of its two ends' factors
  `rsqrt (max deg ε)` (or `0` at a node of degree zero), computed by the same operations of the edge list in both programs.

  On the extended reals the two orders agree because the features and the weights are real numbers (the precondition)
  and so is every coefficient (the reciprocal square root of a positive extended real is real): a linear map commutes
  with a weighted sum of rows, by distributivity and an exchange of two finite sums over ℝ.  The kernel's side is read in
  Proof/KernelValue.lean (the region's blocks cover the result; the aggregate is what the host operations before the
  region wrote), the reference's in Proof/RefValue.lean, the law is Proof/Spec.lean's.  The idealization rewrote nothing,
  so `preserves` is trivial; the frames are the generated ones, the reference's its run with the result dropped.
-/
import proofs.«143462_j47519518163429_2_alg».proof.Defs
import proofs.«143462_j47519518163429_2_alg».proof.Proof.Gen.Kernel
import proofs.«143462_j47519518163429_2_alg».proof.Proof.Gen.Kernel.Frame
import proofs.«143462_j47519518163429_2_alg».proof.Proof.Gen.KernelIdeal
import proofs.«143462_j47519518163429_2_alg».proof.Proof.Gen.KernelIdeal.Frame
import proofs.«143462_j47519518163429_2_alg».proof.Proof.Gen.KernelIdeal.Value
import proofs.«143462_j47519518163429_2_alg».proof.Proof.Gen.ReferenceIdeal
import proofs.«143462_j47519518163429_2_alg».proof.Proof.Gen.Pre_finite_inputs
import proofs.«143462_j47519518163429_2_alg».proof.Proof.RefRun
import proofs.«143462_j47519518163429_2_alg».proof.Proof.Spec
import proofs.«143462_j47519518163429_2_alg».proof.Proof.Finite
import proofs.«143462_j47519518163429_2_alg».proof.Proof.KernelCoeff
import proofs.«143462_j47519518163429_2_alg».proof.Proof.KernelValue
import proofs.«143462_j47519518163429_2_alg».proof.Proof.RefValue
import Idealize.ShloMosaic.Adequacy
import Idealize.ShloMosaic.Init

noncomputable section

namespace Cert.Proof

open Idealize.ShloMosaic Idealize.ShloMosaic.TcCoe Idealize.SL.Sem

/-! ## The two programs compute the edges' ends and coefficients by the same operations -/

theorem rowNIdx_eq (e1 : IVec ⟨2, ![2, 640000]⟩ 32) :
    Cert.ReferenceIdeal.Agg.rowNIdx e1 = Cert.KernelIdeal.Agg.rowNIdx e1 := rfl

theorem colIdx_eq (e1 : IVec ⟨2, ![2, 640000]⟩ 32) :
    Cert.ReferenceIdeal.Agg.colIdx e1 = Cert.KernelIdeal.Agg.colIdx e1 := rfl

/-- Stated at every float instance: the two terms are the same operations, whatever they compute. -/
theorem nrm_eq {F : FTy → Type} [FloatOps F] (e1 : IVec ⟨2, ![2, 640000]⟩ 32) :
    Cert.ReferenceIdeal.Agg.nrm (F := F) e1 = Cert.KernelIdeal.Agg.nrm (F := F) e1 := rfl

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both result arrays end at one function of the arguments: the kernel's at the aggregate-first form, the reference's at
    the map-first form, equal since features, weights and coefficients are real. -/
theorem algebraic : Cert.algebraic_KernelIdeal_ReferenceIdeal := by
  intro m ρ m' ρ' hpre hagree
  refine ⟨_, Cert.KernelIdeal.AggValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨hx, hW⟩ := Cert.Finite.real_of_pre _ _ _ _ (hpre c)
  rw [Cert.ReferenceIdeal.Agg.res_eq, Cert.ReferenceIdeal.Agg.result_eq, (hagree c).1, (hagree c).2.1, (hagree c).2.2.1,
    (hagree c).2.2.2, rowNIdx_eq, colIdx_eq, nrm_eq]
  exact (Cert.Spec.outAggFirst_eq_outMapFirst _ _ _ _ _ _ hx hW (Cert.KernelIdeal.Agg.nrm_isReal _)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
